-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S1x10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S1x10000x10000 : Shape := ⟨3, ![1, 10000, 10000]⟩
abbrev S128x128 : Shape := ⟨2, ![128, 128]⟩
abbrev S128 : Shape := ⟨1, ![128]⟩
abbrev S10000x10000 : Shape := ⟨2, ![10000, 10000]⟩
abbrev S1x128 : Shape := ⟨2, ![1, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 21
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x10000, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S10000x128, .f32⟩
  | .hbm, ⟨18, _⟩ => ⟨S128x128, .f32⟩
  | .hbm, ⟨19, _⟩ => ⟨S128x128, .f32⟩
  | .hbm, ⟨20, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S10000x128, .f32⟩
  | .local _ .vmem, ⟨13, _⟩ => ⟨S400x128, .f32⟩
  | .local _ .vmem, ⟨14, _⟩ => ⟨S400x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1x10000x10000_S10000x10000 : S1x10000x10000.ShapeCasts S10000x10000
  shapeCasts_S128_S1x128 : S128.ShapeCasts S1x128
  transposes_S128x128_S128x128_1_0 : S128x128.Transposes [1, 0] S128x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  shapeCasts_S10000x128_S10000x128 : S10000x128.ShapeCasts S10000x128
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_v0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S1x10000x10000 : Shape := ⟨3, ![1, 10000, 10000]⟩
abbrev S128x128 : Shape := ⟨2, ![128, 128]⟩
abbrev S128 : Shape := ⟨1, ![128]⟩
abbrev S10000x10000 : Shape := ⟨2, ![10000, 10000]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 62
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S10000x10000, .f32⟩
  | .hbm, ⟨11, _⟩ => ⟨S10000x128, .f32⟩
  | .hbm, ⟨12, _⟩ => ⟨S128x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S128x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S_, .f32⟩
  | .hbm, ⟨28, _⟩ => ⟨S10000x1, .f32⟩
  | .hbm, ⟨29, _⟩ => ⟨S10000x1, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S128x128, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S128x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S_, .f32⟩
  | .hbm, ⟨48, _⟩ => ⟨S10000, .f32⟩
  | .hbm, ⟨49, _⟩ => ⟨S_, .f32⟩
  | .hbm, ⟨50, _⟩ => ⟨S10000, .f32⟩
  | .hbm, ⟨51, _⟩ => ⟨S10000, .f32⟩
  | .hbm, ⟨52, _⟩ => ⟨S10000x1, .f32⟩
  | .hbm, ⟨53, _⟩ => ⟨S10000x128, .f32⟩
  | .hbm, ⟨54, _⟩ => ⟨S10000x128, .f32⟩
  | .hbm, ⟨55, _⟩ => ⟨S10000x128, .f32⟩
  | .hbm, ⟨56, _⟩ => ⟨S_, .f32⟩
  | .hbm, ⟨57, _⟩ => ⟨S10000, .f32⟩
  | .hbm, ⟨58, _⟩ => ⟨S10000x1, .f32⟩
  | .hbm, ⟨59, _⟩ => ⟨S10000x1, .f32⟩
  | .hbm, ⟨60, _⟩ => ⟨S10000x128, .f32⟩
  | .hbm, ⟨61, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_call1_cst_0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_cst_1 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  shapeCasts_S1x10000x10000_S10000x10000 : S1x10000x10000.ShapeCasts S10000x10000
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S_S10000 : S_.BroadcastsInDim S10000 (![] : Fin 0 → Fin S10000.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KBody0a.lean ====
/-
  Region 0 (the first layer's kernel) at the contents V the region is entered from, for any float instance.

  The kernel has seven windows on a grid of 25 points: the adjacency matrix by blocks of 400 rows (window 0), the
  whole feature matrix (window 1), the same feature matrix by blocks of 400 rows (window 2), the two transposed
  weight matrices (windows 3, 4), the bias row (window 5), and the result by blocks of 400 rows (window 6).
  Windows 1 and 2 read ONE array, so neither can hold it at the full share: each holds half.
  The body loads its six input blocks whole, loads the output buffer (the value is not used), and stores one
  value, a pure function of the six loaded blocks, over the whole output buffer.  So after the body the output's
  buffer is that function of the input blocks, and every input buffer is as it was.
-/
import proofs.«101081_g67053029425277_cont_sun_c4_613_2_alg».proof.Proof.Gen.Kernel.Launch
import proofs.«101081_g67053029425277_cont_sun_c4_613_2_alg».proof.Proof.Gen.Kernel.Skeleton
import proofs.«101081_g67053029425277_cont_sun_c4_613_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev rA0 : Rect S400x10000 := Rect.unit (s := S400x10000) ![0, 0] S400x10000.size inb_S400x10000_S400x10000_0_0
abbrev rX0 : Rect S10000x128 := Rect.unit (s := S10000x128) ![0, 0] S10000x128.size inb_S10000x128_S10000x128_0_0
abbrev rB0 : Rect S400x128 := Rect.unit (s := S400x128) ![0, 0] S400x128.size inb_S400x128_S400x128_0_0
abbrev rW0 : Rect S128x128 := Rect.unit (s := S128x128) ![0, 0] S128x128.size inb_S128x128_S128x128_0_0
abbrev rb0 : Rect S1x128 := Rect.unit (s := S1x128) ![0, 0] S1x128.size inb_S1x128_S1x128_0_0

/-! ## What the body leaves in the output window's buffer -/

/-- The output's staging buffer after the body, from the six input blocks: its one store as one piece. -/
def out0_6 (x0 : Vec F S400x10000 .f32) (x1 : Vec F S10000x128 .f32) (x2 : Vec F S400x128 .f32) (x3 : Vec F S128x128 .f32)
    (x4 : Vec F S128x128 .f32) (x5 : Vec F S1x128 .f32) : Vec F S400x128 .f32 :=
  View.canon [⟨rB0, k0_pay1 (View.ld x0 rA0) (View.ld x1 rX0) (View.ld x3 rW0) (View.ld x2 rB0) (View.ld x4 rW0) (View.ld x5 rb0)⟩]

/-- The one store covers the buffer. -/
theorem cover0_6 (p0 : Vec F S400x128 .f32) (y : S400x128.Idx) :
    ∃ pc ∈ ([⟨rB0, p0⟩] : List (View.Piece (Elt F) S400x128 .f32)), y ∈ pc.1.set :=
  View.cover_of_tiled [⟨rB0, p0⟩] S400x128.size (by rfl) y

/-! ## The body's triple -/

set_option maxHeartbeats 4000000 in
/-- The body on whole staging memrefs, the inputs' at contents x0 … x5 and the output's at anything, runs to the
    continuation holding the inputs' as they were and the output's at the function of the inputs above. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x128 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

end Cert.Kernel.Hand

end
-- ==== Proof.KBody0.lean ====
/-
  Region 0's proof data and body obligation, at the contents V the region is entered from, for any float instance.

  After the body at a point every input window's buffer holds its block (the body only loads it) and the output
  window's buffer holds the body's function of the six input blocks.  The two windows that read one array hold it
  at the two halves of the full share; every other input array is held whole.  Nothing is owed to another core, and
  the invariant carried from point to point is the core's scratch and its generator register, untouched.
-/
import proofs.«101081_g67053029425277_cont_sun_c4_613_2_alg».proof.Proof.KBody0a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KDeal0.lean ====
/-
  Region 0's arrays dealt among its windows, and gathered back.

  The region's seven windows stand on six distinct arrays: windows 1 and 2 read the same one.  At entry the core
  holds every unscoped buffer whole; the six buffers behind the windows' arrays are split off, and the one read
  twice is halved along its share, one half per window.  At exit the two halves, which still hold the same
  contents (an input array is never written), are put together again, the output's array holds what the
  write-backs left, and every other buffer is as it was.
-/
import proofs.«101081_g67053029425277_cont_sun_c4_613_2_alg».proof.Proof.KBody0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six distinct buffers behind the windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_arg0) ↦{fullShare} V main_arg0)
          ∗ (((c : Thread nD τ).loc main_v5) ↦{fullShare} V main_v5) ∗ (((c : Thread nD τ).loc main_v6) ↦{fullShare} V main_v6)
          ∗ (((c : Thread nD τ).loc main_v2) ↦{fullShare} V main_v2) ∗ (((c : Thread nD τ).loc main_v7) ↦{fullShare} V main_v7)) := by
  unfold Pipeline.arrBufs
  exact bigSep_eq_bigSepL_of_eq [main_v0, main_arg0, main_v5, main_v6, main_v2, main_v7] (by decide) (by decide) _

variable (V : (c : Dev nD) → (b : Ref sig .tc) → Buf (Elt F) ((c : Thread nD τ).loc b))

/-- The windows' arrays, each a whole buffer at its window's share. -/
theorem arrays0_eq (c : Dev nD) (G : (w : Fin cfg0.W) → Buf (Elt F) ((cfg0.win w).arr.view.loc (c : Thread nD τ))) :
    (dat0 V c).arrays G = bigSep Finset.univ fun w => (((c : Thread nD τ).loc (Pipeline.arrRef spec0 w)) ↦{(dat0 V c).share w} G w : sProp 𝕄) := by
  unfold Dat.arrays
  exact bigSep_congr fun w _ => by rw [(arr_whole0 w).set_eq_univ]

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- ENTRY: the core's unscoped buffers at the contents V are the windows' arrays at their entry contents, the array
    read twice halved between its two windows, and the other unscoped buffers. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [show (unscopedBufs (Ix := Unit) (Name := ℕ) (U := UR sig nD τ) (Lvl := ℕ) c (V c) : sProp 𝕄)
      = iprop(Pipeline.arrBufs spec0 c (V c) ∗ Pipeline.unscopedRest spec0 c (V c))
    from Pipeline.unscopedBufs_split₀ cfgs (0 : Fin 2) winFacts₀0.arr_unscoped c (V c)]
  refine sep_mono ?_ .rfl
  rw [arrBufs0_eq, arrays0_eq, bigSep_W0, share0_0, share0_1, share0_2, share0_3, share0_4, share0_5, share0_6]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- EXIT: the windows' arrays at their final contents and the other unscoped buffers are the core's unscoped buffers
    at contents V' that differ from V at the output's array only, where they hold what the write-backs left. -/
theorem exit0 (V' : (c : Dev nD) → (b : Ref sig .tc) → Buf (Elt F) ((c : Thread nD τ).loc b)) (c : Dev nD)
    (hout : V' c main_v7 = (dat0 V c).arrAt 6 cfg0.N)
    (hrest : ∀ b : Ref sig .tc, b ≠ main_v7 → V' c b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  have hR : (Pipeline.unscopedRest (Ix := Unit) (Name := ℕ) (U := UR sig nD τ) (Lvl := ℕ) spec0 c (V' c) : sProp 𝕄)
      = Pipeline.unscopedRest spec0 c (V c) := by
    unfold Pipeline.unscopedRest
    exact bigSep_congr fun b hb => by
      rw [hrest b (fun e => (Finset.mem_sdiff.mp hb).2 (e ▸ (by decide : main_v7 ∈ Finset.univ.image (Pipeline.arrRef spec0))))]
  rw [show (unscopedBufs (Ix := Unit) (Name := ℕ) (U := UR sig nD τ) (Lvl := ℕ) c (V' c) : sProp 𝕄)
      = iprop(Pipeline.arrBufs spec0 c (V' c) ∗ Pipeline.unscopedRest spec0 c (V' c))
    from Pipeline.unscopedBufs_split₀ cfgs (0 : Fin 2) winFacts₀0.arr_unscoped c (V' c), hR, arrBufs0_eq, arrays0_eq, bigSep_W0,
    share0_0, share0_1, share0_2, share0_3, share0_4, share0_5, share0_6,
    hrest main_v0 (by decide), hrest main_arg0 (by decide), hrest main_v5 (by decide), hrest main_v6 (by decide), hrest main_v2 (by decide), hout,
    (dat0 V c).arrAt_in 0 rfl cfg0.N, (dat0 V c).arrAt_in 1 rfl cfg0.N, (dat0 V c).arrAt_in 2 rfl cfg0.N, (dat0 V c).arrAt_in 3 rfl cfg0.N,
    (dat0 V c).arrAt_in 4 rfl cfg0.N, (dat0 V c).arrAt_in 5 rfl cfg0.N]
  iintro ⟨⟨H0, H1, H2, H3, H4, H5, H6⟩, Hrest⟩
  isplitr [Hrest]
  swap; · iexact Hrest
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.Kernel.Hand

end
-- ==== Proof.KBody1a.lean ====
/-
  Region 1 (the second layer's kernel) at the contents V the region is entered from, for any float instance.

  The kernel has seven windows on a grid of 25 points: the adjacency matrix by blocks of 400 rows (window 0), the
  whole feature matrix (window 1), the same feature matrix by blocks of 400 rows (window 2), the two transposed
  weight matrices (windows 3, 4), the bias row (window 5), and the result by blocks of 400 rows (window 6).
  Windows 1 and 2 read ONE array, so neither can hold it at the full share: each holds half.
  The body loads its six input blocks whole, loads the output buffer (the value is not used), and stores one
  value, a pure function of the six loaded blocks, over the whole output buffer.  So after the body the output's
  buffer is that function of the input blocks, and every input buffer is as it was.
-/
import proofs.«101081_g67053029425277_cont_sun_c4_613_2_alg».proof.Proof.Gen.Kernel.Launch
import proofs.«101081_g67053029425277_cont_sun_c4_613_2_alg».proof.Proof.Gen.Kernel.Skeleton
import proofs.«101081_g67053029425277_cont_sun_c4_613_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole rectangle -/

abbrev rA1 : Rect S400x10000 := Rect.unit (s := S400x10000) ![0, 0] S400x10000.size inb_S400x10000_S400x10000_0_0
abbrev rX1 : Rect S10000x128 := Rect.unit (s := S10000x128) ![0, 0] S10000x128.size inb_S10000x128_S10000x128_0_0
abbrev rB1 : Rect S400x128 := Rect.unit (s := S400x128) ![0, 0] S400x128.size inb_S400x128_S400x128_0_0
abbrev rW1 : Rect S128x128 := Rect.unit (s := S128x128) ![0, 0] S128x128.size inb_S128x128_S128x128_0_0
abbrev rb1 : Rect S1x128 := Rect.unit (s := S1x128) ![0, 0] S1x128.size inb_S1x128_S1x128_0_0

/-! ## What the body leaves in the output window's buffer -/

/-- The output's staging buffer after the body, from the six input blocks: its one store as one piece. -/
def out1_6 (x0 : Vec F S400x10000 .f32) (x1 : Vec F S10000x128 .f32) (x2 : Vec F S400x128 .f32) (x3 : Vec F S128x128 .f32)
    (x4 : Vec F S128x128 .f32) (x5 : Vec F S1x128 .f32) : Vec F S400x128 .f32 :=
  View.canon [⟨rB1, k1_pay1 (View.ld x0 rA1) (View.ld x1 rX1) (View.ld x3 rW1) (View.ld x2 rB1) (View.ld x4 rW1) (View.ld x5 rb1)⟩]

/-- The one store covers the buffer. -/
theorem cover1_6 (p0 : Vec F S400x128 .f32) (y : S400x128.Idx) :
    ∃ pc ∈ ([⟨rB1, p0⟩] : List (View.Piece (Elt F) S400x128 .f32)), y ∈ pc.1.set :=
  View.cover_of_tiled [⟨rB1, p0⟩] S400x128.size (by rfl) y

/-! ## The body's triple -/

set_option maxHeartbeats 4000000 in
/-- The body on whole staging memrefs, the inputs' at contents x0 … x5 and the output's at anything, runs to the
    continuation holding the inputs' as they were and the output's at the function of the inputs above. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x128 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

end Cert.Kernel.Hand

end
-- ==== Proof.KBody1.lean ====
/-
  Region 1's proof data and body obligation, at the contents V the region is entered from, for any float instance.

  After the body at a point every input window's buffer holds its block (the body only loads it) and the output
  window's buffer holds the body's function of the six input blocks.  The two windows that read one array hold it
  at the two halves of the full share; every other input array is held whole.  Nothing is owed to another core, and
  the invariant carried from point to point is the core's scratch and its generator register, untouched.
-/
import proofs.«101081_g67053029425277_cont_sun_c4_613_2_alg».proof.Proof.KBody1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KDeal1.lean ====
/-
  Region 1's arrays dealt among its windows, and gathered back.

  The region's seven windows stand on six distinct arrays: windows 1 and 2 read the same one.  At entry the core
  holds every unscoped buffer whole; the six buffers behind the windows' arrays are split off, and the one read
  twice is halved along its share, one half per window.  At exit the two halves, which still hold the same
  contents (an input array is never written), are put together again, the output's array holds what the
  write-backs left, and every other buffer is as it was.
-/
import proofs.«101081_g67053029425277_cont_sun_c4_613_2_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six distinct buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_v4) ↦{fullShare} V main_v4) ∗ (((c : Thread nD τ).loc main_v10) ↦{fullShare} V main_v10)) := by
  unfold Pipeline.arrBufs
  exact bigSep_eq_bigSepL_of_eq [main_v0, main_v7, main_v8, main_v9, main_v4, main_v10] (by decide) (by decide) _

variable (V : (c : Dev nD) → (b : Ref sig .tc) → Buf (Elt F) ((c : Thread nD τ).loc b))

/-- The windows' arrays, each a whole buffer at its window's share. -/
theorem arrays1_eq (c : Dev nD) (G : (w : Fin cfg1.W) → Buf (Elt F) ((cfg1.win w).arr.view.loc (c : Thread nD τ))) :
    (dat1 V c).arrays G = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl

/-- ENTRY: the core's unscoped buffers at the contents V are the windows' arrays at their entry contents, the array
    read twice halved between its two windows, and the other unscoped buffers. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs (1 : Fin 2) winFacts₀1.arr_unscoped c (V c)]
  refine sep_mono ?_ .rfl
  rw [arrBufs1_eq, arrays1_eq, bigSep_W1, share1_0, share1_1, share1_2, share1_3, share1_4, share1_5, share1_6]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- EXIT: the windows' arrays at their final contents and the other unscoped buffers are the core's unscoped buffers
    at contents V' that differ from V at the output's array only, where they hold what the write-backs left. -/
theorem exit1 (V' : (c : Dev nD) → (b : Ref sig .tc) → Buf (Elt F) ((c : Thread nD τ).loc b)) (c : Dev nD)
    (hout : V' c main_v10 = (dat1 V c).arrAt 6 cfg1.N)
    (hrest : ∀ b : Ref sig .tc, b ≠ main_v10 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  have hR : (Pipeline.unscopedRest (Ix := Unit) (Name := ℕ) (U := UR sig nD τ) (Lvl := ℕ) spec1 c (V' c) : sProp 𝕄)
      = Pipeline.unscopedRest spec1 c (V c) := by
    unfold Pipeline.unscopedRest
    exact bigSep_congr fun b hb => by
      rw [hrest b (fun e => (Finset.mem_sdiff.mp hb).2 (e ▸ (by decide : main_v10 ∈ Finset.univ.image (Pipeline.arrRef spec1))))]
  rw [show (unscopedBufs (Ix := Unit) (Name := ℕ) (U := UR sig nD τ) (Lvl := ℕ) c (V' c) : sProp 𝕄)
      = iprop(Pipeline.arrBufs spec1 c (V' c) ∗ Pipeline.unscopedRest spec1 c (V' c))
    from Pipeline.unscopedBufs_split₀ cfgs (1 : Fin 2) winFacts₀1.arr_unscoped c (V' c), hR, arrBufs1_eq, arrays1_eq, bigSep_W1,
    share1_0, share1_1, share1_2, share1_3, share1_4, share1_5, share1_6,
    hrest main_v0 (by decide), hrest main_v7 (by decide), hrest main_v8 (by decide), hrest main_v9 (by decide), hrest main_v4 (by decide), hout,
    (dat1 V c).arrAt_in 0 rfl cfg1.N, (dat1 V c).arrAt_in 1 rfl cfg1.N, (dat1 V c).arrAt_in 2 rfl cfg1.N, (dat1 V c).arrAt_in 3 rfl cfg1.N,
    (dat1 V c).arrAt_in 4 rfl cfg1.N, (dat1 V c).arrAt_in 5 rfl cfg1.N]
  iintro ⟨⟨H0, H1, H2, H3, H4, H5, H6⟩, Hrest⟩
  isplitr [Hrest]
  swap; · iexact Hrest
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.Kernel.Hand

end
-- ==== Proof.KRun.lean ====
/-
  The run of the two-region program from the launch to the return, for any float instance.

  @main is: a stretch of host operations (the adjacency slab re-laid, the two bias sums, two weight transposes), the
  first layer's region, a second stretch (two more transposes), the second layer's region.  Between two items the
  core holds every unscoped buffer whole at a known valuation: the launch memory, then each stretch applied, then,
  after a region, the same valuation with the region's output array replaced by what its write-backs left.  Each
  region is entered from that state by dealing its arrays among its windows and left by gathering them back.
  Read at the end, the last valuation gives the result array (what the second region's write-backs left) and each
  argument array as launched: no host operation and no region writes an argument.
-/
import proofs.«101081_g67053029425277_cont_sun_c4_613_2_alg».proof.Proof.KDeal0
import proofs.«101081_g67053029425277_cont_sun_c4_613_2_alg».proof.Proof.KDeal1
import proofs.«101081_g67053029425277_cont_sun_c4_613_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 (c : Dev nD) : Valuation τ sig (Elt F) := fun b => m (c, b)
/-- After the first stretch of host operations (the first region's entry). -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After the first region: its output array at what the write-backs left, every other buffer as entered. -/
def W2 (c : Dev nD) : Valuation τ sig (Elt F) := Function.update (W1 m c) main_v7 ((dat0 (U1 m) c).arrAt 6 cfg0.N)
theorem W2_out (c : Dev nD) : W2 m c main_v7 = (dat0 (U1 m) c).arrAt 6 cfg0.N := by
  unfold W2; exact Function.update_self _ _ _
theorem W2_of_ne (c : Dev nD) (r : Ref sig .tc) (h : r ≠ main_v7) : W2 m c r = W1 m c r := by
  unfold W2; exact Function.update_of_ne (StableHlo.devRef_ne_of_ne h) _ _
abbrev U2 : (c : Dev nD) → (b : Ref sig .tc) → Buf (Elt F) ((c : Thread nD τ).loc b) := fun c b => W2 m c b
/-- After the second stretch (the second region's entry). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- After the second region. -/
def W4 (c : Dev nD) : Valuation τ sig (Elt F) := Function.update (W3 m c) main_v10 ((dat1 (U3 m) c).arrAt 6 cfg1.N)
theorem W4_out (c : Dev nD) : W4 m c main_v10 = (dat1 (U3 m) c).arrAt 6 cfg1.N := by
  unfold W4; exact Function.update_self _ _ _
theorem W4_of_ne (c : Dev nD) (r : Ref sig .tc) (h : r ≠ main_v10) : W4 m c r = W3 m c r := by
  unfold W4; exact Function.update_of_ne (StableHlo.devRef_ne_of_ne h) _ _
abbrev U4 : (c : Dev nD) → (b : Ref sig .tc) → Buf (Elt F) ((c : Thread nD τ).loc b) := fun c b => W4 m c b

/-- A buffer that no host operation writes and that is no region's output reaches the end as launched. -/
theorem W4_kept (c : Dev nD) (r : Ref sig .tc) (h10 : r ≠ main_v10) (h1 : r ∉ hostOps1_W) (h7 : r ≠ main_v7) (h0 : r ∉ hostOps0_W) :
    W4 m c r = m ((c : Thread nD τ).loc r) :=
  (W4_of_ne m c r h10).trans <| (StableHlo.after_of_writes_sub hostOps1 _ hostOps1_writes h1).trans <|
    (W2_of_ne m c r h7).trans <| (StableHlo.after_of_writes_sub hostOps0 _ hostOps0_writes h0).trans rfl

/-! ## The proof data family and the thread state -/

/-- Every pipeline's proof data, each at its region's entry contents. -/
def pd : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A stretch of host operations as an item, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's owing nothing apart. -/
abbrev Tend (c : Dev nD) : sProp 𝕄 := iprop(StableHlo.held (c : Thread nD τ) (Pipeline.ucRefs τ sig) (W4 m c) ∗ ∃ r, prngReg c r)

/-! ## The regions as items -/

set_option backward.isDefEq.respectTransparency.types false in
/-- The first region: entered from every unscoped buffer at W1, left at W2. -/
def regA : Pipeline.RegionSeg (pcfgs (F := F)) adm (pd m) () defs₀ noVar noL noLv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ noL noLv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := entry0 (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (U1 m) (U2 m) c (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4. -/
def regB : Pipeline.RegionSeg (pcfgs (F := F)) adm (pd m) () defs₀ noVar noL noLv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ noL noLv 1 fun _ _ => rfl
  pre c := iprop(StableHlo.held (c : Thread nD τ) (Pipeline.ucRefs τ sig) (W3 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := entry1 (U3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (U3 m) (U4 m) c (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as its items, and the launch -/

/-- @main's four items in order. -/
abbrev items : List (Pipeline.Seg (pcfgs (F := F)) adm (pd m) () defs₀ noVar noL noLv) :=
  [ .host (hostItem hostOps0 hostOps0_sub hostOps0_fresh (W0 m)),
    .region (regA m),
    .host (hostItem hostOps1 hostOps1_sub hostOps1_fresh (W2 m)),
    .region (regB m) ]
theorem main_items (c : Dev nD) : main (F := F) c = Pipeline.Seg.run (items m) := (main_chain c).trans (by chain_rfl)

set_option backward.isDefEq.respectTransparency.types false in
/-- From any memory with zero counters, every weakly fair execution of @main terminates, nothing faulting; the result
    array ends at what the second region's write-backs left and every argument array as launched. -/
theorem run_main : θ_run defs (onTc (τ := τ) (main (F := F))) ⟨m, fun _ => 0, ρ⟩ (fun r => ∀ c : Dev nD,
      r.2.mem ((c.tc : Thread nD τ).loc main_v10) = (dat1 (U3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pd m) () cellOf_inj emb₁ defs₀ noVar noL noLv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v10 (by decide))).trans (W4_out m c),
       (h c _ (mem_uc main_arg0 (by decide))).trans (W4_kept m c main_arg0 (by decide) (by decide) (by decide) (by decide)),
       (h c _ (mem_uc main_arg1 (by decide))).trans (W4_kept m c main_arg1 (by decide) (by decide) (by decide) (by decide)),
       (h c _ (mem_uc main_arg2 (by decide))).trans (W4_kept m c main_arg2 (by decide) (by decide) (by decide) (by decide)),
       (h c _ (mem_uc main_arg3 (by decide))).trans (W4_kept m c main_arg3 (by decide) (by decide) (by decide) (by decide)),
       (h c _ (mem_uc main_arg4 (by decide))).trans (W4_kept m c main_arg4 (by decide) (by decide) (by decide) (by decide)),
       (h c _ (mem_uc main_arg5 (by decide))).trans (W4_kept m c main_arg5 (by decide) (by decide) (by decide) (by decide)),
       (h c _ (mem_uc main_arg6 (by decide))).trans (W4_kept m c main_arg6 (by decide) (by decide) (by decide) (by decide)),
       (h c _ (mem_uc main_arg7 (by decide))).trans (W4_kept m c main_arg7 (by decide) (by decide) (by decide) (by decide)),
       (h c _ (mem_uc main_arg8 (by decide))).trans (W4_kept m c main_arg8 (by decide) (by decide) (by decide) (by decide)),
       (h c _ (mem_uc main_arg9 (by decide))).trans (W4_kept m c main_arg9 (by decide) (by decide) (by decide) (by decide))⟩)

end Cert.Kernel.Hand

end
-- ==== Proof.KIBody0a.lean ====
/-
  Region 0 (the first layer's kernel) at the contents V the region is entered from, for any float instance.

  The kernel has seven windows on a grid of 25 points: the adjacency matrix by blocks of 400 rows (window 0), the
  whole feature matrix (window 1), the same feature matrix by blocks of 400 rows (window 2), the two transposed
  weight matrices (windows 3, 4), the bias row (window 5), and the result by blocks of 400 rows (window 6).
  Windows 1 and 2 read ONE array, so neither can hold it at the full share: each holds half.
  The body loads its six input blocks whole, loads the output buffer (the value is not used), and stores one
  value, a pure function of the six loaded blocks, over the whole output buffer.  So after the body the output's
  buffer is that function of the input blocks, and every input buffer is as it was.
-/
import proofs.«101081_g67053029425277_cont_sun_c4_613_2_alg».proof.Proof.Gen.KernelIdeal.Launch
import proofs.«101081_g67053029425277_cont_sun_c4_613_2_alg».proof.Proof.Gen.KernelIdeal.Skeleton
import proofs.«101081_g67053029425277_cont_sun_c4_613_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev rA0 : Rect S400x10000 := Rect.unit (s := S400x10000) ![0, 0] S400x10000.size inb_S400x10000_S400x10000_0_0
abbrev rX0 : Rect S10000x128 := Rect.unit (s := S10000x128) ![0, 0] S10000x128.size inb_S10000x128_S10000x128_0_0
abbrev rB0 : Rect S400x128 := Rect.unit (s := S400x128) ![0, 0] S400x128.size inb_S400x128_S400x128_0_0
abbrev rW0 : Rect S128x128 := Rect.unit (s := S128x128) ![0, 0] S128x128.size inb_S128x128_S128x128_0_0
abbrev rb0 : Rect S1x128 := Rect.unit (s := S1x128) ![0, 0] S1x128.size inb_S1x128_S1x128_0_0

/-! ## What the body leaves in the output window's buffer -/

/-- The output's staging buffer after the body, from the six input blocks: its one store as one piece. -/
def out0_6 (x0 : Vec F S400x10000 .f32) (x1 : Vec F S10000x128 .f32) (x2 : Vec F S400x128 .f32) (x3 : Vec F S128x128 .f32)
    (x4 : Vec F S128x128 .f32) (x5 : Vec F S1x128 .f32) : Vec F S400x128 .f32 :=
  View.canon [⟨rB0, k0_pay1 (View.ld x0 rA0) (View.ld x1 rX0) (View.ld x3 rW0) (View.ld x2 rB0) (View.ld x4 rW0) (View.ld x5 rb0)⟩]

/-- The one store covers the buffer. -/
theorem cover0_6 (p0 : Vec F S400x128 .f32) (y : S400x128.Idx) :
    ∃ pc ∈ ([⟨rB0, p0⟩] : List (View.Piece (Elt F) S400x128 .f32)), y ∈ pc.1.set :=
  View.cover_of_tiled [⟨rB0, p0⟩] S400x128.size (by rfl) y

/-! ## The body's triple -/

set_option maxHeartbeats 4000000 in
/-- The body on whole staging memrefs, the inputs' at contents x0 … x5 and the output's at anything, runs to the
    continuation holding the inputs' as they were and the output's at the function of the inputs above. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x128 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__layer_body i arg1 harg1 arg2 harg2 arg3 harg3 arg4 harg4 arg5 harg5 arg6 harg6 arg7 harg7) K := by
  simp only [cc0__layer_body_eq_skeleton]; unfold cc0__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

end Cert.KernelIdeal.Hand

end
-- ==== Proof.KIBody0.lean ====
/-
  Region 0's proof data and body obligation, at the contents V the region is entered from, for any float instance.

  After the body at a point every input window's buffer holds its block (the body only loads it) and the output
  window's buffer holds the body's function of the six input blocks.  The two windows that read one array hold it
  at the two halves of the full share; every other input array is held whole.  Nothing is owed to another core, and
  the invariant carried from point to point is the core's scratch and its generator register, untouched.
-/
import proofs.«101081_g67053029425277_cont_sun_c4_613_2_alg».proof.Proof.KIBody0a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIDeal0.lean ====
/-
  Region 0's arrays dealt among its windows, and gathered back.

  The region's seven windows stand on six distinct arrays: windows 1 and 2 read the same one.  At entry the core
  holds every unscoped buffer whole; the six buffers behind the windows' arrays are split off, and the one read
  twice is halved along its share, one half per window.  At exit the two halves, which still hold the same
  contents (an input array is never written), are put together again, the output's array holds what the
  write-backs left, and every other buffer is as it was.
-/
import proofs.«101081_g67053029425277_cont_sun_c4_613_2_alg».proof.Proof.KIBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six distinct buffers behind the windows' arrays, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_arg0) ↦{fullShare} V main_arg0)
          ∗ (((c : Thread nD τ).loc main_v5) ↦{fullShare} V main_v5) ∗ (((c : Thread nD τ).loc main_v6) ↦{fullShare} V main_v6)
          ∗ (((c : Thread nD τ).loc main_v2) ↦{fullShare} V main_v2) ∗ (((c : Thread nD τ).loc main_v7) ↦{fullShare} V main_v7)) := by
  unfold Pipeline.arrBufs
  exact bigSep_eq_bigSepL_of_eq [main_v0, main_arg0, main_v5, main_v6, main_v2, main_v7] (by decide) (by decide) _

variable (V : (c : Dev nD) → (b : Ref sig .tc) → Buf (Elt F) ((c : Thread nD τ).loc b))

/-- The windows' arrays, each a whole buffer at its window's share. -/
theorem arrays0_eq (c : Dev nD) (G : (w : Fin cfg0.W) → Buf (Elt F) ((cfg0.win w).arr.view.loc (c : Thread nD τ))) :
    (dat0 V c).arrays G = bigSep Finset.univ fun w => (((c : Thread nD τ).loc (Pipeline.arrRef spec0 w)) ↦{(dat0 V c).share w} G w : sProp 𝕄) := by
  unfold Dat.arrays
  exact bigSep_congr fun w _ => by rw [(arr_whole0 w).set_eq_univ]

theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl

/-- ENTRY: the core's unscoped buffers at the contents V are the windows' arrays at their entry contents, the array
    read twice halved between its two windows, and the other unscoped buffers. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [show (unscopedBufs (Ix := Unit) (Name := ℕ) (U := UR sig nD τ) (Lvl := ℕ) c (V c) : sProp 𝕄)
      = iprop(Pipeline.arrBufs spec0 c (V c) ∗ Pipeline.unscopedRest spec0 c (V c))
    from Pipeline.unscopedBufs_split₀ cfgs (0 : Fin 2) winFacts₀0.arr_unscoped c (V c)]
  refine sep_mono ?_ .rfl
  rw [arrBufs0_eq, arrays0_eq, bigSep_W0, share0_0, share0_1, share0_2, share0_3, share0_4, share0_5, share0_6]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- EXIT: the windows' arrays at their final contents and the other unscoped buffers are the core's unscoped buffers
    at contents V' that differ from V at the output's array only, where they hold what the write-backs left. -/
theorem exit0 (V' : (c : Dev nD) → (b : Ref sig .tc) → Buf (Elt F) ((c : Thread nD τ).loc b)) (c : Dev nD)
    (hout : V' c main_v7 = (dat0 V c).arrAt 6 cfg0.N)
    (hrest : ∀ b : Ref sig .tc, b ≠ main_v7 → V' c b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  have hR : (Pipeline.unscopedRest (Ix := Unit) (Name := ℕ) (U := UR sig nD τ) (Lvl := ℕ) spec0 c (V' c) : sProp 𝕄)
      = Pipeline.unscopedRest spec0 c (V c) := by
    unfold Pipeline.unscopedRest
    exact bigSep_congr fun b hb => by
      rw [hrest b (fun e => (Finset.mem_sdiff.mp hb).2 (e ▸ (by decide : main_v7 ∈ Finset.univ.image (Pipeline.arrRef spec0))))]
  rw [show (unscopedBufs (Ix := Unit) (Name := ℕ) (U := UR sig nD τ) (Lvl := ℕ) c (V' c) : sProp 𝕄)
      = iprop(Pipeline.arrBufs spec0 c (V' c) ∗ Pipeline.unscopedRest spec0 c (V' c))
    from Pipeline.unscopedBufs_split₀ cfgs (0 : Fin 2) winFacts₀0.arr_unscoped c (V' c), hR, arrBufs0_eq, arrays0_eq, bigSep_W0,
    share0_0, share0_1, share0_2, share0_3, share0_4, share0_5, share0_6,
    hrest main_v0 (by decide), hrest main_arg0 (by decide), hrest main_v5 (by decide), hrest main_v6 (by decide), hrest main_v2 (by decide), hout,
    (dat0 V c).arrAt_in 0 rfl cfg0.N, (dat0 V c).arrAt_in 1 rfl cfg0.N, (dat0 V c).arrAt_in 2 rfl cfg0.N, (dat0 V c).arrAt_in 3 rfl cfg0.N,
    (dat0 V c).arrAt_in 4 rfl cfg0.N, (dat0 V c).arrAt_in 5 rfl cfg0.N]
  iintro ⟨⟨H0, H1, H2, H3, H4, H5, H6⟩, Hrest⟩
  isplitr [Hrest]
  swap; · iexact Hrest
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.KernelIdeal.Hand

end
-- ==== Proof.KIBody1a.lean ====
/-
  Region 1 (the second layer's kernel) at the contents V the region is entered from, for any float instance.

  The kernel has seven windows on a grid of 25 points: the adjacency matrix by blocks of 400 rows (window 0), the
  whole feature matrix (window 1), the same feature matrix by blocks of 400 rows (window 2), the two transposed
  weight matrices (windows 3, 4), the bias row (window 5), and the result by blocks of 400 rows (window 6).
  Windows 1 and 2 read ONE array, so neither can hold it at the full share: each holds half.
  The body loads its six input blocks whole, loads the output buffer (the value is not used), and stores one
  value, a pure function of the six loaded blocks, over the whole output buffer.  So after the body the output's
  buffer is that function of the input blocks, and every input buffer is as it was.
-/
import proofs.«101081_g67053029425277_cont_sun_c4_613_2_alg».proof.Proof.Gen.KernelIdeal.Launch
import proofs.«101081_g67053029425277_cont_sun_c4_613_2_alg».proof.Proof.Gen.KernelIdeal.Skeleton
import proofs.«101081_g67053029425277_cont_sun_c4_613_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole rectangle -/

abbrev rA1 : Rect S400x10000 := Rect.unit (s := S400x10000) ![0, 0] S400x10000.size inb_S400x10000_S400x10000_0_0
abbrev rX1 : Rect S10000x128 := Rect.unit (s := S10000x128) ![0, 0] S10000x128.size inb_S10000x128_S10000x128_0_0
abbrev rB1 : Rect S400x128 := Rect.unit (s := S400x128) ![0, 0] S400x128.size inb_S400x128_S400x128_0_0
abbrev rW1 : Rect S128x128 := Rect.unit (s := S128x128) ![0, 0] S128x128.size inb_S128x128_S128x128_0_0
abbrev rb1 : Rect S1x128 := Rect.unit (s := S1x128) ![0, 0] S1x128.size inb_S1x128_S1x128_0_0

/-! ## What the body leaves in the output window's buffer -/

/-- The output's staging buffer after the body, from the six input blocks: its one store as one piece. -/
def out1_6 (x0 : Vec F S400x10000 .f32) (x1 : Vec F S10000x128 .f32) (x2 : Vec F S400x128 .f32) (x3 : Vec F S128x128 .f32)
    (x4 : Vec F S128x128 .f32) (x5 : Vec F S1x128 .f32) : Vec F S400x128 .f32 :=
  View.canon [⟨rB1, k1_pay1 (View.ld x0 rA1) (View.ld x1 rX1) (View.ld x3 rW1) (View.ld x2 rB1) (View.ld x4 rW1) (View.ld x5 rb1)⟩]

/-- The one store covers the buffer. -/
theorem cover1_6 (p0 : Vec F S400x128 .f32) (y : S400x128.Idx) :
    ∃ pc ∈ ([⟨rB1, p0⟩] : List (View.Piece (Elt F) S400x128 .f32)), y ∈ pc.1.set :=
  View.cover_of_tiled [⟨rB1, p0⟩] S400x128.size (by rfl) y

/-! ## The body's triple -/

set_option maxHeartbeats 4000000 in
/-- The body on whole staging memrefs, the inputs' at contents x0 … x5 and the output's at anything, runs to the
    continuation holding the inputs' as they were and the output's at the function of the inputs above. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S400x128 .f32) (harg7 : arg7.IsWhole)
    (x0 : Vec F S400x10000 .f32) (x1 : Vec F S10000x128 .f32) (x2 : Vec F S400x128 .f32) (x3 : Vec F S128x128 .f32)
    (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__layer_body i arg1 harg1 arg2 harg2 arg3 harg3 arg4 harg4 arg5 harg5 arg6 harg6 arg7 harg7) K := by
  simp only [cc1__layer_body_eq_skeleton]; unfold cc1__layer_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

end Cert.KernelIdeal.Hand

end
-- ==== Proof.KIBody1.lean ====
/-
  Region 1's proof data and body obligation, at the contents V the region is entered from, for any float instance.

  After the body at a point every input window's buffer holds its block (the body only loads it) and the output
  window's buffer holds the body's function of the six input blocks.  The two windows that read one array hold it
  at the two halves of the full share; every other input array is held whole.  Nothing is owed to another core, and
  the invariant carried from point to point is the core's scratch and its generator register, untouched.
-/
import proofs.«101081_g67053029425277_cont_sun_c4_613_2_alg».proof.Proof.KIBody1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIDeal1.lean ====
/-
  Region 1's arrays dealt among its windows, and gathered back.

  The region's seven windows stand on six distinct arrays: windows 1 and 2 read the same one.  At entry the core
  holds every unscoped buffer whole; the six buffers behind the windows' arrays are split off, and the one read
  twice is halved along its share, one half per window.  At exit the two halves, which still hold the same
  contents (an input array is never written), are put together again, the output's array holds what the
  write-backs left, and every other buffer is as it was.
-/
import proofs.«101081_g67053029425277_cont_sun_c4_613_2_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The six distinct buffers behind the windows' arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_v4) ↦{fullShare} V main_v4) ∗ (((c : Thread nD τ).loc main_v10) ↦{fullShare} V main_v10)) := by
  unfold Pipeline.arrBufs
  exact bigSep_eq_bigSepL_of_eq [main_v0, main_v7, main_v8, main_v9, main_v4, main_v10] (by decide) (by decide) _

variable (V : (c : Dev nD) → (b : Ref sig .tc) → Buf (Elt F) ((c : Thread nD τ).loc b))

/-- The windows' arrays, each a whole buffer at its window's share. -/
theorem arrays1_eq (c : Dev nD) (G : (w : Fin cfg1.W) → Buf (Elt F) ((cfg1.win w).arr.view.loc (c : Thread nD τ))) :
    (dat1 V c).arrays G = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

theorem share1_0 (c : Dev nD) : (dat1 V c).share 0 = fullShare := rfl
theorem share1_1 (c : Dev nD) : (dat1 V c).share 1 = fullShare.left := rfl
theorem share1_2 (c : Dev nD) : (dat1 V c).share 2 = fullShare.right := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl

/-- ENTRY: the core's unscoped buffers at the contents V are the windows' arrays at their entry contents, the array
    read twice halved between its two windows, and the other unscoped buffers. -/
theorem entry1 (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs (1 : Fin 2) winFacts₀1.arr_unscoped c (V c)]
  refine sep_mono ?_ .rfl
  rw [arrBufs1_eq, arrays1_eq, bigSep_W1, share1_0, share1_1, share1_2, share1_3, share1_4, share1_5, share1_6]
  iintro ⟨H0, H1, H3, H4, H5, H6⟩
  ihave H12 := (pointsTo_share (PosShare.mem_left_op_right fullShare)).1 $$ H1
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
/-- EXIT: the windows' arrays at their final contents and the other unscoped buffers are the core's unscoped buffers
    at contents V' that differ from V at the output's array only, where they hold what the write-backs left. -/
theorem exit1 (V' : (c : Dev nD) → (b : Ref sig .tc) → Buf (Elt F) ((c : Thread nD τ).loc b)) (c : Dev nD)
    (hout : V' c main_v10 = (dat1 V c).arrAt 6 cfg1.N)
    (hrest : ∀ b : Ref sig .tc, b ≠ main_v10 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  have hR : (Pipeline.unscopedRest (Ix := Unit) (Name := ℕ) (U := UR sig nD τ) (Lvl := ℕ) spec1 c (V' c) : sProp 𝕄)
      = Pipeline.unscopedRest spec1 c (V c) := by
    unfold Pipeline.unscopedRest
    exact bigSep_congr fun b hb => by
      rw [hrest b (fun e => (Finset.mem_sdiff.mp hb).2 (e ▸ (by decide : main_v10 ∈ Finset.univ.image (Pipeline.arrRef spec1))))]
  rw [show (unscopedBufs (Ix := Unit) (Name := ℕ) (U := UR sig nD τ) (Lvl := ℕ) c (V' c) : sProp 𝕄)
      = iprop(Pipeline.arrBufs spec1 c (V' c) ∗ Pipeline.unscopedRest spec1 c (V' c))
    from Pipeline.unscopedBufs_split₀ cfgs (1 : Fin 2) winFacts₀1.arr_unscoped c (V' c), hR, arrBufs1_eq, arrays1_eq, bigSep_W1,
    share1_0, share1_1, share1_2, share1_3, share1_4, share1_5, share1_6,
    hrest main_v0 (by decide), hrest main_v7 (by decide), hrest main_v8 (by decide), hrest main_v9 (by decide), hrest main_v4 (by decide), hout,
    (dat1 V c).arrAt_in 0 rfl cfg1.N, (dat1 V c).arrAt_in 1 rfl cfg1.N, (dat1 V c).arrAt_in 2 rfl cfg1.N, (dat1 V c).arrAt_in 3 rfl cfg1.N,
    (dat1 V c).arrAt_in 4 rfl cfg1.N, (dat1 V c).arrAt_in 5 rfl cfg1.N]
  iintro ⟨⟨H0, H1, H2, H3, H4, H5, H6⟩, Hrest⟩
  isplitr [Hrest]
  swap; · iexact Hrest
  isplitl [H0]; · iexact H0
  isplitl [H1 H2]
  · iapply (pointsTo_share (PosShare.mem_left_op_right fullShare)).2
    isplitl [H1]; · iexact H1
    iexact H2
  isplitl [H3]; · iexact H3
  isplitl [H4]; · iexact H4
  isplitl [H5]; · iexact H5
  iexact H6

end Cert.KernelIdeal.Hand

end
-- ==== Proof.KIRun.lean ====
/-
  The run of the two-region program from the launch to the return, for any float instance.

  @main is: a stretch of host operations (the adjacency slab re-laid, the two bias sums, two weight transposes), the
  first layer's region, a second stretch (two more transposes), the second layer's region.  Between two items the
  core holds every unscoped buffer whole at a known valuation: the launch memory, then each stretch applied, then,
  after a region, the same valuation with the region's output array replaced by what its write-backs left.  Each
  region is entered from that state by dealing its arrays among its windows and left by gathering them back.
  Read at the end, the last valuation gives the result array (what the second region's write-backs left) and each
  argument array as launched: no host operation and no region writes an argument.
-/
import proofs.«101081_g67053029425277_cont_sun_c4_613_2_alg».proof.Proof.KIDeal0
import proofs.«101081_g67053029425277_cont_sun_c4_613_2_alg».proof.Proof.KIDeal1
import proofs.«101081_g67053029425277_cont_sun_c4_613_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 (c : Dev nD) : Valuation τ sig (Elt F) := fun b => m (c, b)
/-- After the first stretch of host operations (the first region's entry). -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After the first region: its output array at what the write-backs left, every other buffer as entered. -/
def W2 (c : Dev nD) : Valuation τ sig (Elt F) := Function.update (W1 m c) main_v7 ((dat0 (U1 m) c).arrAt 6 cfg0.N)
theorem W2_out (c : Dev nD) : W2 m c main_v7 = (dat0 (U1 m) c).arrAt 6 cfg0.N := by
  unfold W2; exact Function.update_self _ _ _
theorem W2_of_ne (c : Dev nD) (r : Ref sig .tc) (h : r ≠ main_v7) : W2 m c r = W1 m c r := by
  unfold W2; exact Function.update_of_ne (StableHlo.devRef_ne_of_ne h) _ _
abbrev U2 : (c : Dev nD) → (b : Ref sig .tc) → Buf (Elt F) ((c : Thread nD τ).loc b) := fun c b => W2 m c b
/-- After the second stretch (the second region's entry). -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- After the second region. -/
def W4 (c : Dev nD) : Valuation τ sig (Elt F) := Function.update (W3 m c) main_v10 ((dat1 (U3 m) c).arrAt 6 cfg1.N)
theorem W4_out (c : Dev nD) : W4 m c main_v10 = (dat1 (U3 m) c).arrAt 6 cfg1.N := by
  unfold W4; exact Function.update_self _ _ _
theorem W4_of_ne (c : Dev nD) (r : Ref sig .tc) (h : r ≠ main_v10) : W4 m c r = W3 m c r := by
  unfold W4; exact Function.update_of_ne (StableHlo.devRef_ne_of_ne h) _ _
abbrev U4 : (c : Dev nD) → (b : Ref sig .tc) → Buf (Elt F) ((c : Thread nD τ).loc b) := fun c b => W4 m c b

/-- A buffer that no host operation writes and that is no region's output reaches the end as launched. -/
theorem W4_kept (c : Dev nD) (r : Ref sig .tc) (h10 : r ≠ main_v10) (h1 : r ∉ hostOps1_W) (h7 : r ≠ main_v7) (h0 : r ∉ hostOps0_W) :
    W4 m c r = m ((c : Thread nD τ).loc r) :=
  (W4_of_ne m c r h10).trans <| (StableHlo.after_of_writes_sub hostOps1 _ hostOps1_writes h1).trans <|
    (W2_of_ne m c r h7).trans <| (StableHlo.after_of_writes_sub hostOps0 _ hostOps0_writes h0).trans rfl

/-! ## The proof data family and the thread state -/

/-- Every pipeline's proof data, each at its region's entry contents. -/
def pd : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A stretch of host operations as an item, from the contents W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the core's owing nothing apart. -/
abbrev Tend (c : Dev nD) : sProp 𝕄 := iprop(StableHlo.held (c : Thread nD τ) (Pipeline.ucRefs τ sig) (W4 m c) ∗ ∃ r, prngReg c r)

/-! ## The regions as items -/

set_option backward.isDefEq.respectTransparency.types false in
/-- The first region: entered from every unscoped buffer at W1, left at W2. -/
def regA : Pipeline.RegionSeg (pcfgs (F := F)) adm (pd m) () defs₀ noVar noL noLv 0 where
  win := winFacts₀0
  block_pos := block_pos0
  stage_whole := stage_whole0
  K := PEmpty
  osem k := k.elim
  ho := Pipeline.OwnSemFacts.none _
  hbody c := (body_obligation0 (U1 m) c).loose
  hwaits := Pipeline.hwaits_of_owed_zero _ _ _ _ noL noLv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := entry0 (U1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    rw [Pipeline.ownSems0_none, show (pd m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (U1 m) (U2 m) c (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered from every unscoped buffer at W3, left at W4. -/
def regB : Pipeline.RegionSeg (pcfgs (F := F)) adm (pd m) () defs₀ noVar noL noLv 1 where
  win := winFacts₀1
  block_pos := block_pos1
  stage_whole := stage_whole1
  K := PEmpty
  osem k := k.elim
  ho := Pipeline.OwnSemFacts.none _
  hbody c := (body_obligation1 (U3 m) c).loose
  hwaits := Pipeline.hwaits_of_owed_zero _ _ _ _ noL noLv 1 fun _ _ => rfl
  pre c := iprop(StableHlo.held (c : Thread nD τ) (Pipeline.ucRefs τ sig) (W3 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := entry1 (U3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    rw [Pipeline.ownSems0_none, show (pd m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (U3 m) (U4 m) c (W4_out m c) (fun b hb => W4_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as its items, and the launch -/

/-- @main's four items in order. -/
abbrev items : List (Pipeline.Seg (pcfgs (F := F)) adm (pd m) () defs₀ noVar noL noLv) :=
  [ .host (hostItem hostOps0 hostOps0_sub hostOps0_fresh (W0 m)),
    .region (regA m),
    .host (hostItem hostOps1 hostOps1_sub hostOps1_fresh (W2 m)),
    .region (regB m) ]
theorem main_items (c : Dev nD) : main (F := F) c = Pipeline.Seg.run (items m) := (main_chain c).trans (by chain_rfl)

set_option backward.isDefEq.respectTransparency.types false in
/-- From any memory with zero counters, every weakly fair execution of @main terminates, nothing faulting; the result
    array ends at what the second region's write-backs left and every argument array as launched. -/
theorem run_main : θ_run defs (onTc (τ := τ) (main (F := F))) ⟨m, fun _ => 0, ρ⟩ (fun r => ∀ c : Dev nD,
      r.2.mem ((c.tc : Thread nD τ).loc main_v10) = (dat1 (U3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pd m) () cellOf_inj emb₁ defs₀ noVar noL noLv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v10 (by decide))).trans (W4_out m c),
       (h c _ (mem_uc main_arg0 (by decide))).trans (W4_kept m c main_arg0 (by decide) (by decide) (by decide) (by decide)),
       (h c _ (mem_uc main_arg1 (by decide))).trans (W4_kept m c main_arg1 (by decide) (by decide) (by decide) (by decide)),
       (h c _ (mem_uc main_arg2 (by decide))).trans (W4_kept m c main_arg2 (by decide) (by decide) (by decide) (by decide)),
       (h c _ (mem_uc main_arg3 (by decide))).trans (W4_kept m c main_arg3 (by decide) (by decide) (by decide) (by decide)),
       (h c _ (mem_uc main_arg4 (by decide))).trans (W4_kept m c main_arg4 (by decide) (by decide) (by decide) (by decide)),
       (h c _ (mem_uc main_arg5 (by decide))).trans (W4_kept m c main_arg5 (by decide) (by decide) (by decide) (by decide)),
       (h c _ (mem_uc main_arg6 (by decide))).trans (W4_kept m c main_arg6 (by decide) (by decide) (by decide) (by decide)),
       (h c _ (mem_uc main_arg7 (by decide))).trans (W4_kept m c main_arg7 (by decide) (by decide) (by decide) (by decide)),
       (h c _ (mem_uc main_arg8 (by decide))).trans (W4_kept m c main_arg8 (by decide) (by decide) (by decide) (by decide)),
       (h c _ (mem_uc main_arg9 (by decide))).trans (W4_kept m c main_arg9 (by decide) (by decide) (by decide) (by decide))⟩)

end Cert.KernelIdeal.Hand

end
-- ==== Proof.Spec.lean ====
/-
  The two-layer dense GraphSAGE network as ONE function of the ten argument arrays, entry by entry, on the
  extended reals.

  One layer sends a feature matrix h (10000 x 128) to, row by row,
      pre(i, j) = ( Σ_k (Σ_l adj(i,l) · h(l,k)) · Wl(j,k)  +  Σ_k h(i,k) · Wr(j,k) )  +  (bl(j) + br(j)),
  followed by a row-wise epilogue: the first layer divides a row by its L1 norm clamped below at 1e-12 (the
  f32 word 0x2B8CBCCC read exactly) and clamps the quotient at zero; the second subtracts the row's maximum
  and then the logarithm of the row's sum of exponentials (log-softmax).  A row of the result depends on the
  same row of adj and of h, and on all of h through the aggregation adj · h.
-/
import Idealize.ShloMosaic.PureOps.Ideal
import Idealize.ShloMosaic.Lib.ValueIdx

noncomputable section

namespace Cert.Sage

open Idealize.ShloMosaic Idealize.ShloMosaic.ValueIdx

/-- One row of a layer before its epilogue: `a` is the row of the adjacency matrix, `hrow` the same row of the
    features, `src` all the features, `wlt` and `wrt` the two weight matrices already transposed (indexed
    contraction first), `b` the summed bias. -/
def rowPre (a : Fin 10000 → EReal) (hrow : Fin 128 → EReal) (src : Fin 10000 → Fin 128 → EReal)
    (wlt wrt : Fin 128 → Fin 128 → EReal) (b : Fin 128 → EReal) (j : Fin 128) : EReal :=
  ((∑ k : Fin 128, (∑ l : Fin 10000, a l * src l k) * wlt k j) + ∑ k : Fin 128, hrow k * wrt k j) + b j

/-- The first layer's epilogue on a row: divide by the L1 norm clamped below at the f32 word of 1e-12, clamp at 0. -/
def normRelu (p : Fin 128 → EReal) (j : Fin 128) : EReal :=
  max (Ideal.div (p j) (max (∑ j' : Fin 128, max (p j') (-(p j'))) (Ideal.ofBits .f32 0x2B8CBCCC#32)))
    (Ideal.ofBits .f32 0x00000000#32)

/-- The second layer's epilogue on a row: log-softmax, shifted by the row's maximum (a fold of max from -inf). -/
def logSoftmax (p : Fin 128 → EReal) (j : Fin 128) : EReal :=
  (p j - (Finset.univ : Finset (Fin 128)).fold max (Ideal.ofBits .f32 0xFF800000#32) p)
    - Ideal.log (∑ j' : Fin 128, Ideal.exp
        (p j' - (Finset.univ : Finset (Fin 128)).fold max (Ideal.ofBits .f32 0xFF800000#32) p))

/-- One layer with epilogue `epi`, from the untransposed weights `Wl`, `Wr` (indexed output first) and the two
    biases. -/
def layer (epi : (Fin 128 → EReal) → Fin 128 → EReal)
    (adj : (⟨2, ![10000, 10000]⟩ : Shape).Idx → EReal) (h : (⟨2, ![10000, 128]⟩ : Shape).Idx → EReal)
    (Wl Wr : (⟨2, ![128, 128]⟩ : Shape).Idx → EReal) (bl br : (⟨1, ![128]⟩ : Shape).Idx → EReal) :
    (⟨2, ![10000, 128]⟩ : Shape).Idx → EReal :=
  fun idx => epi (rowPre (fun l => adj (ix2 (idx 0) l)) (fun k => h (ix2 (idx 0) k)) (fun l k => h (ix2 l k))
    (fun k j => Wl (ix2 j k)) (fun k j => Wr (ix2 j k)) (fun j => bl (ix1 j) + br (ix1 j))) (idx 1)

/-- The adjacency matrix: the one slab of the rank-3 input. -/
def adjOf (block : (⟨3, ![1, 10000, 10000]⟩ : Shape).Idx → EReal) : (⟨2, ![10000, 10000]⟩ : Shape).Idx → EReal :=
  fun idx => block (ix3 (0 : Fin 1) (idx 0) (idx 1))

/-- The first layer's output (what the second layer reads). -/
def hidden (x : (⟨2, ![10000, 128]⟩ : Shape).Idx → EReal) (block : (⟨3, ![1, 10000, 10000]⟩ : Shape).Idx → EReal)
    (Wl1 : (⟨2, ![128, 128]⟩ : Shape).Idx → EReal) (bl1 : (⟨1, ![128]⟩ : Shape).Idx → EReal)
    (Wr1 : (⟨2, ![128, 128]⟩ : Shape).Idx → EReal) (br1 : (⟨1, ![128]⟩ : Shape).Idx → EReal) :
    (⟨2, ![10000, 128]⟩ : Shape).Idx → EReal :=
  layer normRelu (adjOf block) x Wl1 Wr1 bl1 br1

/-- The network, in the argument order of the two programs: x, block, W_l1, b_l1, W_r1, b_r1, W_l2, b_l2, W_r2, b_r2. -/
def net (x : (⟨2, ![10000, 128]⟩ : Shape).Idx → EReal) (block : (⟨3, ![1, 10000, 10000]⟩ : Shape).Idx → EReal)
    (Wl1 : (⟨2, ![128, 128]⟩ : Shape).Idx → EReal) (bl1 : (⟨1, ![128]⟩ : Shape).Idx → EReal)
    (Wr1 : (⟨2, ![128, 128]⟩ : Shape).Idx → EReal) (br1 : (⟨1, ![128]⟩ : Shape).Idx → EReal)
    (Wl2 : (⟨2, ![128, 128]⟩ : Shape).Idx → EReal) (bl2 : (⟨1, ![128]⟩ : Shape).Idx → EReal)
    (Wr2 : (⟨2, ![128, 128]⟩ : Shape).Idx → EReal) (br2 : (⟨1, ![128]⟩ : Shape).Idx → EReal) :
    (⟨2, ![10000, 128]⟩ : Shape).Idx → EReal :=
  layer logSoftmax (adjOf block) (hidden x block Wl1 bl1 Wr1 br1) Wl2 Wr2 bl2 br2

end Cert.Sage

end
-- ==== Proof.SpecBlock.lean ====
/-
  One layer as its region sees it: from the adjacency matrix, the feature matrix, the two weight matrices ALREADY
  transposed (indexed contraction first) and the summed bias as a row [1, 128] — the arrays the host operations
  before the region leave.  Row i of the result is the epilogue of the row function of row i of the adjacency
  matrix, row i of the features and all the features.
-/
import proofs.«101081_g67053029425277_cont_sun_c4_613_2_alg».proof.Proof.Spec

noncomputable section

namespace Cert.Sage

open Idealize.ShloMosaic Idealize.ShloMosaic.ValueIdx

/-- One layer over the region's own operand arrays. -/
def blockLayer (epi : (Fin 128 → EReal) → Fin 128 → EReal)
    (adj : (⟨2, ![10000, 10000]⟩ : Shape).Idx → EReal) (h : (⟨2, ![10000, 128]⟩ : Shape).Idx → EReal)
    (wlt wrt : (⟨2, ![128, 128]⟩ : Shape).Idx → EReal) (b : (⟨2, ![1, 128]⟩ : Shape).Idx → EReal) :
    (⟨2, ![10000, 128]⟩ : Shape).Idx → EReal :=
  fun idx => epi (rowPre (fun l => adj (ix2 (idx 0) l)) (fun k => h (ix2 (idx 0) k)) (fun l k => h (ix2 l k))
    (fun k j => wlt (ix2 k j)) (fun k j => wrt (ix2 k j)) (fun j => b (ix2 (0 : Fin 1) j))) (idx 1)

end Cert.Sage

end
-- ==== Proof.KIHost.lean ====
/-
  What the host operations leave in the arrays the two regions read, and with it each region's layer over the
  argument arrays, on the extended reals.

  Before the first region the host re-lays the one slab of the rank-3 adjacency input as a matrix, adds the two bias
  vectors of the layer and re-lays the sum as a row, and transposes the two weight matrices; before the second region
  it transposes the second layer's weights (its bias row was made at the start).  Read at an entry: the re-laid slab at
  (i, l) is the input at (0, i, l); a transposed weight at (k, j) is the weight at (j, k); the bias row at (0, j) is
  the sum of the two biases at j.  So the layer a region computes from those arrays is the layer of the
  specification from the argument arrays.
-/
import proofs.«101081_g67053029425277_cont_sun_c4_613_2_alg».proof.Proof.KIRun
import proofs.«101081_g67053029425277_cont_sun_c4_613_2_alg».proof.Proof.SpecBlock
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

/-! ## The three layout operations read at an entry -/

/-- The slab re-laid as a matrix, at (i, l), is the rank-3 input at (0, i, l). -/
theorem slab_apply (x1 : FVec Ideal S1x10000x10000 .f32) (i l : Fin 10000) :
    shapeCast S10000x10000 x1 shapeCasts_S1x10000x10000_S10000x10000 (ix2 i l) = x1 (ix3 (0 : Fin 1) i l) := by
  refine shapeCast_apply x1 shapeCasts_S1x10000x10000_S10000x10000 (ix2 i l) (ix3 (0 : Fin 1) i l) ?_
  rw [Shape.rowMajor_val_three, Shape.rowMajor_val_two]
  show (0 * 10000 + i.val) * 10000 + l.val = i.val * 10000 + l.val
  omega

/-- A transposed weight matrix at (k, j) is the matrix at (j, k). -/
theorem transposed_apply (W : FVec Ideal S128x128 .f32) (k j : Fin 128) :
    transpose S128x128 [1, 0] W transposes_S128x128_S128x128_1_0 (ix2 k j) = W (ix2 j k) :=
  transpose_apply [1, 0] W transposes_S128x128_S128x128_1_0 (ix2 k j) (ix2 j k)
    (fun b => by match b with | ⟨0, _⟩ => rfl | ⟨1, _⟩ => rfl)

/-- The summed bias re-laid as a row, at (0, j), is the sum of the two biases at j. -/
theorem biasRow_apply (b1 b2 : FVec Ideal S128 .f32) (j : Fin 128) :
    shapeCast S1x128 (addf b1 b2) shapeCasts_S128_S1x128 (ix2 (0 : Fin 1) j) = b1 (ix1 j) + b2 (ix1 j) := by
  refine (shapeCast_apply (addf b1 b2) shapeCasts_S128_S1x128 (ix2 (0 : Fin 1) j) (ix1 j) ?_).trans rfl
  rw [Shape.rowMajor_val_one, Shape.rowMajor_val_two]
  show j.val = 0 * 128 + j.val
  omega

/-- A region's layer over the arrays the host prepared is the specification's layer over the arguments. -/
theorem blockLayer_args (epi : (Fin 128 → EReal) → Fin 128 → EReal) (block : FVec Ideal S1x10000x10000 .f32)
    (h : FVec Ideal S10000x128 .f32) (Wl Wr : FVec Ideal S128x128 .f32) (bl br : FVec Ideal S128 .f32) :
    Cert.Sage.blockLayer epi (shapeCast S10000x10000 block shapeCasts_S1x10000x10000_S10000x10000) h
        (transpose S128x128 [1, 0] Wl transposes_S128x128_S128x128_1_0) (transpose S128x128 [1, 0] Wr transposes_S128x128_S128x128_1_0)
        (shapeCast S1x128 (addf bl br) shapeCasts_S128_S1x128)
      = Cert.Sage.layer epi (Cert.Sage.adjOf block) h Wl Wr bl br := by
  funext idx
  obtain ⟨r, q, rfl⟩ : ∃ (r : Fin 10000) (q : Fin 128), idx = ix2 r q := ⟨idx 0, idx 1, eq_ix2 idx⟩
  show epi (Cert.Sage.rowPre (fun l => shapeCast S10000x10000 block shapeCasts_S1x10000x10000_S10000x10000 (ix2 r l)) (fun k => h (ix2 r k)) (fun l k => h (ix2 l k))
      (fun k j => transpose S128x128 [1, 0] Wl transposes_S128x128_S128x128_1_0 (ix2 k j)) (fun k j => transpose S128x128 [1, 0] Wr transposes_S128x128_S128x128_1_0 (ix2 k j))
      (fun j => shapeCast S1x128 (addf bl br) shapeCasts_S128_S1x128 (ix2 (0 : Fin 1) j))) q
    = epi (Cert.Sage.rowPre (fun l => block (ix3 (0 : Fin 1) r l)) (fun k => h (ix2 r k)) (fun l k => h (ix2 l k))
      (fun k j => Wl (ix2 j k)) (fun k j => Wr (ix2 j k)) (fun j => bl (ix1 j) + br (ix1 j))) q
  have hT : ∀ W : FVec Ideal S128x128 .f32,
      (fun k j : Fin 128 => transpose S128x128 [1, 0] W transposes_S128x128_S128x128_1_0 (ix2 k j)) = fun k j => W (ix2 j k) :=
    fun W => funext fun k => funext fun j => transposed_apply W k j
  have hS : (fun l : Fin 10000 => shapeCast S10000x10000 block shapeCasts_S1x10000x10000_S10000x10000 (ix2 r l)) = fun l => block (ix3 (0 : Fin 1) r l) :=
    funext fun l => slab_apply block r l
  have hB : (fun j : Fin 128 => shapeCast S1x128 (addf bl br) shapeCasts_S128_S1x128 (ix2 (0 : Fin 1) j)) = fun j => bl (ix1 j) + br (ix1 j) :=
    funext fun j => biasRow_apply bl br j
  rw [hS, hT Wl, hT Wr, hB]

variable (m : (ℓ : Loc nD τ sig) → Buf (Elt Ideal) ℓ)

/-! ## What the first stretch leaves -/

theorem U1_v0 (c : Dev nD) : (U1 m c main_v0 : S10000x10000.Idx → EReal)
    = shapeCast S10000x10000 (m ((c : Thread nD τ).loc main_arg1)) shapeCasts_S1x10000x10000_S10000x10000 := by
  dsimp only [U1, W1, W0, hostOps0]; after_results <;> rfl
theorem U1_v2 (c : Dev nD) : (U1 m c main_v2 : S1x128.Idx → EReal)
    = (shapeCast S1x128 (addf (m ((c : Thread nD τ).loc main_arg3) : FVec Ideal S128 .f32) (m ((c : Thread nD τ).loc main_arg5))) shapeCasts_S128_S1x128 : FVec Ideal S1x128 .f32) := by
  dsimp only [U1, W1, W0, hostOps0]; after_results <;> rfl
theorem U1_v4 (c : Dev nD) : (U1 m c main_v4 : S1x128.Idx → EReal)
    = (shapeCast S1x128 (addf (m ((c : Thread nD τ).loc main_arg7) : FVec Ideal S128 .f32) (m ((c : Thread nD τ).loc main_arg9))) shapeCasts_S128_S1x128 : FVec Ideal S1x128 .f32) := by
  dsimp only [U1, W1, W0, hostOps0]; after_results <;> rfl
theorem U1_v5 (c : Dev nD) : (U1 m c main_v5 : S128x128.Idx → EReal)
    = transpose S128x128 [1, 0] (m ((c : Thread nD τ).loc main_arg2)) transposes_S128x128_S128x128_1_0 := by
  dsimp only [U1, W1, W0, hostOps0]; after_results <;> rfl
theorem U1_v6 (c : Dev nD) : (U1 m c main_v6 : S128x128.Idx → EReal)
    = transpose S128x128 [1, 0] (m ((c : Thread nD τ).loc main_arg4)) transposes_S128x128_S128x128_1_0 := by
  dsimp only [U1, W1, W0, hostOps0]; after_results <;> rfl
theorem U1_arg0 (c : Dev nD) : U1 m c main_arg0 = m ((c : Thread nD τ).loc main_arg0) :=
  (StableHlo.after_of_writes_sub hostOps0 _ hostOps0_writes (by decide)).trans rfl

/-- The first region's layer over the arguments: the specification's first layer. -/
theorem layerA_args (c : Dev nD) :
    Cert.Sage.blockLayer Cert.Sage.normRelu (U1 m c main_v0) (U1 m c main_arg0) (U1 m c main_v5) (U1 m c main_v6) (U1 m c main_v2)
      = Cert.Sage.hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [U1_v0, U1_arg0, U1_v5, U1_v6, U1_v2]
  exact blockLayer_args _ _ _ _ _ _ _

/-! ## What the second stretch leaves -/

theorem W2_kept (c : Dev nD) (r : Ref sig .tc) (h7 : r ≠ main_v7) (h0 : r ∉ hostOps0_W) : W2 m c r = m ((c : Thread nD τ).loc r) :=
  (W2_of_ne m c r h7).trans ((StableHlo.after_of_writes_sub hostOps0 _ hostOps0_writes h0).trans rfl)

theorem U3_v0 (c : Dev nD) : U3 m c main_v0 = U1 m c main_v0 :=
  (StableHlo.after_of_writes_sub hostOps1 _ hostOps1_writes (by decide)).trans (W2_of_ne m c main_v0 (by decide))
theorem U3_v4 (c : Dev nD) : U3 m c main_v4 = U1 m c main_v4 :=
  (StableHlo.after_of_writes_sub hostOps1 _ hostOps1_writes (by decide)).trans (W2_of_ne m c main_v4 (by decide))
theorem U3_v7 (c : Dev nD) : U3 m c main_v7 = (dat0 (U1 m) c).arrAt 6 cfg0.N :=
  (StableHlo.after_of_writes_sub hostOps1 _ hostOps1_writes (by decide)).trans (W2_out m c)
theorem U3_v8 (c : Dev nD) : (U3 m c main_v8 : S128x128.Idx → EReal)
    = transpose S128x128 [1, 0] (m ((c : Thread nD τ).loc main_arg6)) transposes_S128x128_S128x128_1_0 := by
  have e : (U3 m c main_v8 : S128x128.Idx → EReal) = transpose S128x128 [1, 0] (W2 m c main_arg6) transposes_S128x128_S128x128_1_0 := by
    dsimp only [U3, W3, hostOps1]; after_results <;> rfl
  rw [e, W2_kept m c main_arg6 (by decide) (by decide)]
theorem U3_v9 (c : Dev nD) : (U3 m c main_v9 : S128x128.Idx → EReal)
    = transpose S128x128 [1, 0] (m ((c : Thread nD τ).loc main_arg8)) transposes_S128x128_S128x128_1_0 := by
  have e : (U3 m c main_v9 : S128x128.Idx → EReal) = transpose S128x128 [1, 0] (W2 m c main_arg8) transposes_S128x128_S128x128_1_0 := by
    dsimp only [U3, W3, hostOps1]; after_results <;> rfl
  rw [e, W2_kept m c main_arg8 (by decide) (by decide)]

end Cert.KernelIdeal.Hand

end
-- ==== Proof.PayloadLib.lean ====
/-
  The layout, product and reduction operations of the two kernel bodies read at an entry, at the ideal values:
  a [400] vector viewed as a [400,1] column, a column broadcast across 128 lanes, a bias row broadcast down 400
  rows, the two matrix products into a zero accumulator as sums over the contraction coordinate, and the lane
  sum / lane maximum of a 400 x 128 block as a sum / fold over the 128 lanes of one row.
-/
import proofs.«101081_g67053029425277_cont_sun_c4_613_2_alg».proof.Proof.Gen.KernelIdeal.Skeleton
import proofs.«101081_g67053029425277_cont_sun_c4_613_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Payload

open Idealize.ShloMosaic Idealize.ShloMosaic.ValueIdx Cert.KernelIdeal Cert.KernelIdeal.Gen

/-! ## Column layouts -/

/-- A [400] vector viewed as a [400,1] column reads, at (p, u), the vector at p. -/
theorem col_cast_apply {α : Type} (x : S400.Idx → α) (p : Fin 400) (u : Fin 1) :
    shapeCast S400x1 x shapeCasts_S400_S400x1 (ix2 p u) = x (ix1 p) :=
  shapeCast_apply x shapeCasts_S400_S400x1 (ix2 p u) (ix1 p) (by
    have hu : u.val = 0 := by omega
    rw [Shape.rowMajor_val_two, Shape.rowMajor_val_one]
    show p.val = p.val * 1 + u.val
    rw [hu, Nat.mul_one, Nat.add_zero])

/-- A [400,1] column broadcast across 128 lanes reads, at (p, q), the column at (p, 0). -/
theorem col_bcast_apply {α : Type} (x : S400x1.Idx → α) (p : Fin 400) (q : Fin 128) :
    broadcastTo S400x128 x broadcasts_S400x1_S400x128 (ix2 p q) = x (ix2 p (0 : Fin 1)) := by
  refine broadcastTo_apply x broadcasts_S400x1_S400x128 (ix2 p q) (ix2 p (0 : Fin 1)) fun ax => ?_
  match ax with
  | ⟨0, _⟩ => rfl
  | ⟨1, _⟩ => rfl

/-- The [1,128] bias row broadcast down 400 rows reads, at (p, q), the row at (0, q). -/
theorem row_bcast_apply {α : Type} (x : S1x128.Idx → α) (p : Fin 400) (q : Fin 128) :
    broadcastTo S400x128 x broadcasts_S1x128_S400x128 (ix2 p q) = x (ix2 (0 : Fin 1) q) :=
  broadcastTo_1b_ab_apply x broadcasts_S1x128_S400x128 p q

/-! ## The two matrix products read at an entry -/

/-- The aggregation product's record, and the 128-wide linear products' record. -/
abbrev DA := dot_S400x10000_S10000x128_S400x128_1_0_0_1_n_n
abbrev DW := dot_S400x128_S128x128_S400x128_1_0_0_1_n_n

theorem DA_lhs0 (i : S400x128.Idx) (c : DA.contr.Idx) : (DA.lhsIdx i c 0).val = (i 0).val := by
  unfold DotDims.lhsIdx
  rw [dif_neg (show ¬(0 : Fin S400x10000.rank) ∈ DA.lhsBatch by decide),
    dif_pos (show (0 : Fin S400x10000.rank) ∈ DA.lhsNonContracting by decide)]
  rfl
theorem DA_lhs1 (i : S400x128.Idx) (c : DA.contr.Idx) : (DA.lhsIdx i c 1).val = (c ⟨0, by decide⟩).val :=
  DA.lhsIdx_val_of_single rfl i c
theorem DA_rhs0 (i : S400x128.Idx) (c : DA.contr.Idx) : (DA.rhsIdx i c 0).val = (c ⟨0, by decide⟩).val :=
  DA.rhsIdx_val_of_single rfl i c
theorem DA_rhs1 (i : S400x128.Idx) (c : DA.contr.Idx) : (DA.rhsIdx i c 1).val = (i 1).val := by
  unfold DotDims.rhsIdx
  rw [dif_neg (show ¬(1 : Fin S10000x128.rank) ∈ DA.rhsBatch by decide),
    dif_pos (show (1 : Fin S10000x128.rank) ∈ DA.rhsNonContracting by decide)]
  rfl

theorem DW_lhs0 (i : S400x128.Idx) (c : DW.contr.Idx) : (DW.lhsIdx i c 0).val = (i 0).val := by
  unfold DotDims.lhsIdx
  rw [dif_neg (show ¬(0 : Fin S400x128.rank) ∈ DW.lhsBatch by decide),
    dif_pos (show (0 : Fin S400x128.rank) ∈ DW.lhsNonContracting by decide)]
  rfl
theorem DW_lhs1 (i : S400x128.Idx) (c : DW.contr.Idx) : (DW.lhsIdx i c 1).val = (c ⟨0, by decide⟩).val :=
  DW.lhsIdx_val_of_single rfl i c
theorem DW_rhs0 (i : S400x128.Idx) (c : DW.contr.Idx) : (DW.rhsIdx i c 0).val = (c ⟨0, by decide⟩).val :=
  DW.rhsIdx_val_of_single rfl i c
theorem DW_rhs1 (i : S400x128.Idx) (c : DW.contr.Idx) : (DW.rhsIdx i c 1).val = (i 1).val := by
  unfold DotDims.rhsIdx
  rw [dif_neg (show ¬(1 : Fin S128x128.rank) ∈ DW.rhsBatch by decide),
    dif_pos (show (1 : Fin S128x128.rank) ∈ DW.rhsNonContracting by decide)]
  rfl

/-- The [400,10000] x [10000,128] product into a zero accumulator, at (p, q): the sum over the 10000 sources. -/
theorem matmulA_apply {φ₁ φ₂ : FTy} (a : FVec Ideal S400x10000 φ₁) (b : FVec Ideal S10000x128 φ₂) (p : Fin 400) (q : Fin 128) :
    matmul DA none a b (constant (F := Ideal) S400x128 .f32 0x00000000#32) (ix2 p q)
      = ∑ l : Fin 10000, a (ix2 p l) * b (ix2 l q) := by
  simp only [matmul]
  rw [Ideal.matmul_constant_zero_apply, ← Equiv.sum_comp (contrEquiv1 DA 10000 rfl rfl).symm]
  refine Finset.sum_congr rfl fun k _ => ?_
  have hk := contrEquiv1_symm_val DA 10000 rfl rfl k
  have el : DA.lhsIdx (ix2 p q) ((contrEquiv1 DA 10000 rfl rfl).symm k) = ix2 p k := funext fun ax => Fin.ext (by
    match ax with
    | ⟨0, _⟩ => exact DA_lhs0 _ _
    | ⟨1, _⟩ => exact (DA_lhs1 _ _).trans hk)
  have er : DA.rhsIdx (ix2 p q) ((contrEquiv1 DA 10000 rfl rfl).symm k) = ix2 k q := funext fun ax => Fin.ext (by
    match ax with
    | ⟨0, _⟩ => exact (DA_rhs0 _ _).trans hk
    | ⟨1, _⟩ => exact DA_rhs1 _ _)
  rw [el, er]

/-- A [400,128] x [128,128] product into a zero accumulator, at (p, q): the sum over the 128 features. -/
theorem matmulW_apply {φ₁ φ₂ : FTy} (a : FVec Ideal S400x128 φ₁) (b : FVec Ideal S128x128 φ₂) (p : Fin 400) (q : Fin 128) :
    matmul DW none a b (constant (F := Ideal) S400x128 .f32 0x00000000#32) (ix2 p q)
      = ∑ k : Fin 128, a (ix2 p k) * b (ix2 k q) := by
  simp only [matmul]
  rw [Ideal.matmul_constant_zero_apply, ← Equiv.sum_comp (contrEquiv1 DW 128 rfl rfl).symm]
  refine Finset.sum_congr rfl fun k _ => ?_
  have hk := contrEquiv1_symm_val DW 128 rfl rfl k
  have el : DW.lhsIdx (ix2 p q) ((contrEquiv1 DW 128 rfl rfl).symm k) = ix2 p k := funext fun ax => Fin.ext (by
    match ax with
    | ⟨0, _⟩ => exact DW_lhs0 _ _
    | ⟨1, _⟩ => exact (DW_lhs1 _ _).trans hk)
  have er : DW.rhsIdx (ix2 p q) ((contrEquiv1 DW 128 rfl rfl).symm k) = ix2 k q := funext fun ax => Fin.ext (by
    match ax with
    | ⟨0, _⟩ => exact (DW_rhs0 _ _).trans hk
    | ⟨1, _⟩ => exact DW_rhs1 _ _)
  rw [el, er]

/-! ## The lane reductions of a 400 x 128 block -/

/-- The reduced index with lane k put back is (p, k). -/
theorem lift_row (p : Fin 400) (k : Fin 128) :
    reduces_S400x128_S400.lift (ix1 p) k = ix2 p k :=
  funext fun ax => Fin.ext (by
    match ax with
    | ⟨0, _⟩ => rfl
    | ⟨1, _⟩ => rfl)

/-- The lane sum of a block at row p: the sum of the row's 128 entries. -/
theorem laneSum_apply (x : FVec Ideal S400x128 .f32) (hφ : FKind.Formats .f32)
    (hacc : (0x00000000#32 : BitVec 32) = 0x00000000#32) (p : Fin 400) :
    multiReduction (F := Ideal) .add [1] S400 x 0x00000000#32 reduces_S400x128_S400 hφ hacc (ix1 p)
      = ∑ k : Fin 128, x (ix2 p k) :=
  (Ideal.multiReduction_add_single x 0x00000000#32 reduces_S400x128_S400 hφ hacc (ix1 p)).trans
    (Finset.sum_congr rfl fun k _ => congrArg x (lift_row p k))

/-- The lane maximum of a block at row p: the fold of max from -inf over the row's 128 entries. -/
theorem laneMax_apply (x : FVec Ideal S400x128 .f32) (hφ : FKind.Formats .f32)
    (hacc : (0xFF800000#32 : BitVec 32) = 0xFF800000#32) (p : Fin 400) :
    multiReduction (F := Ideal) .maximumf [1] S400 x 0xFF800000#32 reduces_S400x128_S400 hφ hacc (ix1 p)
      = (Finset.univ : Finset (Fin 128)).fold max (Ideal.ofBits .f32 0xFF800000#32) (fun k => x (ix2 p k)) :=
  (Ideal.multiReduction_maximumf_single x 0xFF800000#32 reduces_S400x128_S400 hφ hacc (ix1 p)).trans
    (congrArg ((Finset.univ : Finset (Fin 128)).fold max (Ideal.ofBits .f32 0xFF800000#32))
      (funext fun k => congrArg x (lift_row p k)))

/-! ## The affine part shared by the two bodies -/

/-- The value before the epilogue, at (p, j): the aggregated row times the first weights, plus the row times the
    second weights, plus the bias — the specification's row function of the operands. -/
theorem affine_apply (a : FVec Ideal S400x10000 .bf16) (src : FVec Ideal S10000x128 .bf16) (wl : FVec Ideal S128x128 .bf16)
    (h : FVec Ideal S400x128 .bf16) (wr : FVec Ideal S128x128 .bf16) (b : FVec Ideal S1x128 .f32) (p : Fin 400) (j : Fin 128) :
    addf
        (addf
          (matmul DW none
            (truncf .bf16 (matmul DA none a src (constant (F := Ideal) S400x128 .f32 0x00000000#32)) bitsLt_bf16_f32)
            wl (constant (F := Ideal) S400x128 .f32 0x00000000#32))
          (matmul DW none h wr (constant (F := Ideal) S400x128 .f32 0x00000000#32)))
        (broadcastTo S400x128 b broadcasts_S1x128_S400x128) (ix2 p j)
      = Cert.Sage.rowPre (fun l => a (ix2 p l)) (fun k => h (ix2 p k)) (fun l k => src (ix2 l k))
          (fun k j => wl (ix2 k j)) (fun k j => wr (ix2 k j)) (fun j => b (ix2 (0 : Fin 1) j)) j := by
  unfold Cert.Sage.rowPre
  rw [addf_apply, addf_apply, matmulW_apply, matmulW_apply, row_bcast_apply]
  simp only [truncf_apply, matmulA_apply]

end Cert.Sage.Payload

end
-- ==== Proof.Payload0.lean ====
/-
  The first kernel body's stored value at an entry: the specification's first-layer row function of the loaded
  blocks — the affine part, then the row divided by its L1 norm clamped below, then clamped at zero.
-/
import proofs.«101081_g67053029425277_cont_sun_c4_613_2_alg».proof.Proof.PayloadLib

noncomputable section

namespace Cert.Sage.Payload

open Idealize.ShloMosaic Idealize.ShloMosaic.ValueIdx Cert.KernelIdeal Cert.KernelIdeal.Gen

/-- The first layer's epilogue on a block, at (p, q): the specification's epilogue on row p of the block. -/
theorem normRelu_epi (X : FVec Ideal S400x128 .f32) (hφ : FKind.Formats .f32)
    (hacc : (0x00000000#32 : BitVec 32) = 0x00000000#32) (p : Fin 400) (q : Fin 128) :
    maximumf
        (divf X
          (broadcastTo S400x128
            (maximumf
              (shapeCast S400x1
                (multiReduction (F := Ideal) .add [1] S400 (absf X) 0x00000000#32 reduces_S400x128_S400 hφ hacc)
                shapeCasts_S400_S400x1)
              (broadcast S400x1 (Scalar.ofBits (F := Ideal) .f32 0x2B8CBCCC#32)))
            broadcasts_S400x1_S400x128))
        (broadcast S400x128 (Scalar.ofBits (F := Ideal) .f32 0x00000000#32)) (ix2 p q)
      = Cert.Sage.normRelu (fun j => X (ix2 p j)) q := by
  unfold Cert.Sage.normRelu
  rw [maximumf_apply, divf_apply, col_bcast_apply, maximumf_apply, col_cast_apply, laneSum_apply, broadcast_apply,
    broadcast_apply]
  rfl

theorem pay0_apply
    (v0 : Vec Ideal S400x10000 .f32) (v3 : Vec Ideal S10000x128 .f32) (v7 : Vec Ideal S128x128 .f32)
    (v11 : Vec Ideal S400x128 .f32) (v13 : Vec Ideal S128x128 .f32) (v18 : Vec Ideal S1x128 .f32)
    (p : Fin 400) (q : Fin 128) :
    k0_pay1 (F := Ideal) v0 v3 v7 v11 v13 v18 (ix2 p q)
      = Cert.Sage.normRelu (Cert.Sage.rowPre (fun l => v0 (ix2 p l)) (fun k => v11 (ix2 p k)) (fun l k => v3 (ix2 l k))
          (fun k j => v7 (ix2 k j)) (fun k j => v13 (ix2 k j)) (fun j => v18 (ix2 (0 : Fin 1) j))) q := by
  unfold k0_pay1
  refine (normRelu_epi _ (.inl rfl) rfl p q).trans ?_
  refine congrArg (fun f => Cert.Sage.normRelu f q) (funext fun j => ?_)
  simp only [shapeCast_self]
  exact affine_apply _ _ _ _ _ _ p j

end Cert.Sage.Payload

end
-- ==== Proof.KIValue0.lean ====
/-
  Region 0 (the first layer) from its blocks to the whole result array, at the ideal values.

  Point t of the 25 holds rows 400 t … 400 t + 399 of the adjacency matrix and of the feature matrix, together with
  the whole feature matrix, the two transposed weight matrices and the bias row, and writes back rows
  400 t … 400 t + 399 of the result.  Each stored entry (p, q) is the layer's value at (400 t + p, q), so what a
  point writes back is its block of the layer; row r of the result lies in the block of point r / 400, so the 25
  blocks cover the array, which therefore ends holding the layer of the region's operand arrays.
-/
import proofs.«101081_g67053029425277_cont_sun_c4_613_2_alg».proof.Proof.KIBody0
import proofs.«101081_g67053029425277_cont_sun_c4_613_2_alg».proof.Proof.SpecBlock
import proofs.«101081_g67053029425277_cont_sun_c4_613_2_alg».proof.Proof.Payload0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz00 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable {F : FTy → Type} [FloatOps F]
variable (V : (c : Dev nD) → (b : Ref sig .tc) → Buf (Elt F) ((c : Thread nD τ).loc b))

/-! ## Each input block as entries of its array -/

/-- The adjacency block at point t: rows 400 t … 400 t + 399 of the adjacency matrix. -/
theorem iblk0_0_apply (c : Dev nD) (t : Fin cfg0.N) (x : S400x10000.Idx) (k : S10000x10000.Idx)
    (hk0 : (k 0).val = 400 * t.val + (x 0).val) (hk1 : (k 1).val = (x 1).val) :
    (iblk0 V c 0 t : Vec F S400x10000 .f32) x = (V c main_v0 : S10000x10000.Idx → Elt F .f32) k := by
  obtain ⟨e0, e1, -⟩ := idx_facts0 t
  unfold iblk0
  rw [View.read_apply]
  show V c main_v0 _ = V c main_v0 _
  refine congrArg (V c main_v0) (funext fun a => Fin.ext ?_)
  match a with
  | ⟨0, _⟩ => show win0_0.index t (0 : Fin 2) * 400 + 1 * (x 0).val = (k 0).val; rw [e0, hk0]; omega
  | ⟨1, _⟩ => show win0_0.index t (1 : Fin 2) * 10000 + 1 * (x 1).val = (k 1).val; rw [e1, hk1]; omega

/-- The whole feature matrix, the block every point holds. -/
theorem iblk0_1_eq (c : Dev nD) (t : Fin cfg0.N) :
    (iblk0 V c 1 t : Vec F S10000x128 .f32) = (V c main_arg0 : S10000x128.Idx → Elt F .f32) := by
  obtain ⟨-, -, e0, e1, -⟩ := idx_facts0 t
  funext x
  unfold iblk0
  rw [View.read_apply]
  show V c main_arg0 _ = V c main_arg0 _
  refine congrArg (V c main_arg0) (funext fun a => Fin.ext ?_)
  match a with
  | ⟨0, _⟩ => show win0_1.index t (0 : Fin 2) * 10000 + 1 * (x 0).val = (x 0).val; rw [e0]; omega
  | ⟨1, _⟩ => show win0_1.index t (1 : Fin 2) * 128 + 1 * (x 1).val = (x 1).val; rw [e1]; omega

/-- The feature block at point t: rows 400 t … 400 t + 399 of the feature matrix. -/
theorem iblk0_2_apply (c : Dev nD) (t : Fin cfg0.N) (x : S400x128.Idx) (k : S10000x128.Idx)
    (hk0 : (k 0).val = 400 * t.val + (x 0).val) (hk1 : (k 1).val = (x 1).val) :
    (iblk0 V c 2 t : Vec F S400x128 .f32) x = (V c main_arg0 : S10000x128.Idx → Elt F .f32) k := by
  obtain ⟨-, -, -, -, e0, e1, -⟩ := idx_facts0 t
  unfold iblk0
  rw [View.read_apply]
  show V c main_arg0 _ = V c main_arg0 _
  refine congrArg (V c main_arg0) (funext fun a => Fin.ext ?_)
  match a with
  | ⟨0, _⟩ => show win0_2.index t (0 : Fin 2) * 400 + 1 * (x 0).val = (k 0).val; rw [e0, hk0]; omega
  | ⟨1, _⟩ => show win0_2.index t (1 : Fin 2) * 128 + 1 * (x 1).val = (k 1).val; rw [e1, hk1]; omega

/-- The first transposed weight matrix, whole. -/
theorem iblk0_3_eq (c : Dev nD) (t : Fin cfg0.N) :
    (iblk0 V c 3 t : Vec F S128x128 .f32) = (V c main_v5 : S128x128.Idx → Elt F .f32) := by
  obtain ⟨-, -, -, -, -, -, e0, e1, -⟩ := idx_facts0 t
  funext x
  unfold iblk0
  rw [View.read_apply]
  show V c main_v5 _ = V c main_v5 _
  refine congrArg (V c main_v5) (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The second transposed weight matrix, whole. -/
theorem iblk0_4_eq (c : Dev nD) (t : Fin cfg0.N) :
    (iblk0 V c 4 t : Vec F S128x128 .f32) = (V c main_v6 : S128x128.Idx → Elt F .f32) := by
  obtain ⟨-, -, -, -, -, -, -, -, e0, e1, -⟩ := idx_facts0 t
  funext x
  unfold iblk0
  rw [View.read_apply]
  show V c main_v6 _ = V c main_v6 _
  refine congrArg (V c main_v6) (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The bias row, whole. -/
theorem iblk0_5_eq (c : Dev nD) (t : Fin cfg0.N) :
    (iblk0 V c 5 t : Vec F S1x128 .f32) = (V c main_v2 : S1x128.Idx → Elt F .f32) := by
  obtain ⟨-, -, -, -, -, -, -, -, -, -, e0, e1, -⟩ := idx_facts0 t
  funext x
  unfold iblk0
  rw [View.read_apply]
  show V c main_v2 _ = V c main_v2 _
  refine congrArg (V c main_v2) (funext fun a => Fin.ext ?_)
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-! ## One stored entry -/

/-- The body's stored value at (p, q), when its adjacency block's row p is row r of the adjacency matrix and its
    feature block's row p is row r of the feature matrix: the layer at (r, q). -/
theorem point0 (x0 : Vec Ideal S400x10000 .f32) (x1 : Vec Ideal S10000x128 .f32) (x2 : Vec Ideal S400x128 .f32)
    (x3 x4 : Vec Ideal S128x128 .f32) (x5 : Vec Ideal S1x128 .f32) (A : S10000x10000.Idx → EReal)
    (p : Fin 400) (q : Fin 128) (r : Fin 10000)
    (h0 : ∀ l : Fin 10000, x0 (ix2 p l) = A (ix2 r l)) (h2 : ∀ k : Fin 128, x2 (ix2 p k) = x1 (ix2 r k)) :
    k0_pay1 (F := Ideal) x0 x1 x3 x2 x4 x5 (ix2 p q)
      = Cert.Sage.blockLayer Cert.Sage.normRelu A x1 x3 x4 x5 (ix2 r q) := by
  rw [Cert.Sage.Payload.pay0_apply]
  unfold Cert.Sage.blockLayer
  simp only [h0, h2]

/-! ## What a point writes back, and the array after the last point -/

/-- What point t writes back is block t of the layer of the region's operand arrays. -/
theorem flushed0_eq (V : (c : Dev nD) → (b : Ref sig .tc) → Buf (Elt Ideal) ((c : Thread nD τ).loc b)) (c : Dev nD)
    (t : Fin cfg0.N) :
    (dat0 (F := Ideal) V c).flushed 6 t = ((cfg0.win 6).blk t).view.read (Elt Ideal)
      (Cert.Sage.blockLayer Cert.Sage.normRelu (V c main_v0) (V c main_arg0) (V c main_v5) (V c main_v6) (V c main_v2)) := by
  show (cfg0.win 6).cut (grid0.coords t) ((dat0 V c).after 6 t) = _
  rw [after0_6]
  unfold out0_6
  rw [View.canon_unit_zero hz00]
  simp only [View.ld_unit_zero (S := S400x10000) hz00, View.ld_unit_zero (S := S10000x128) hz00,
    View.ld_unit_zero (S := S400x128) hz00, View.ld_unit_zero (S := S128x128) hz00, View.ld_unit_zero (S := S1x128) hz00]
  rw [iblk0_1_eq, iblk0_3_eq, iblk0_4_eq, iblk0_5_eq]
  have hN : cfg0.N = 25 := N_0
  have ht : t.val < 25 := by have := t.isLt; omega
  obtain ⟨-, -, -, -, -, -, -, -, -, -, -, -, e0, e1⟩ := idx_facts0 t
  funext j
  obtain ⟨p, q, rfl⟩ : ∃ (p : Fin 400) (q : Fin 128), j = ix2 p q := ⟨j 0, j 1, eq_ix2 j⟩
  have hp : p.val < 400 := p.isLt
  have he : ((cfg0.win 6).blk t).view.emb (ix2 p q) = ix2 (⟨400 * t.val + p.val, by omega⟩ : Fin 10000) q := by
    funext a; apply Fin.ext
    match a with
    | ⟨0, _⟩ => show win0_6.index t (0 : Fin 2) * 400 + 1 * p.val = 400 * t.val + p.val; rw [e0]; omega
    | ⟨1, _⟩ => show win0_6.index t (1 : Fin 2) * 128 + 1 * q.val = q.val; rw [e1]; omega
  show k0_pay1 (F := Ideal) (iblk0 V c 0 t) (V c main_arg0) (V c main_v5) (iblk0 V c 2 t) (V c main_v6) (V c main_v2) (ix2 p q)
    = Cert.Sage.blockLayer Cert.Sage.normRelu (V c main_v0) (V c main_arg0) (V c main_v5) (V c main_v6) (V c main_v2)
        (((cfg0.win 6).blk t).view.emb (ix2 p q))
  rw [he]
  exact point0 _ _ _ _ _ _ _ p q _
    (fun l => iblk0_0_apply V c t (ix2 p l) (ix2 _ l) rfl rfl)
    (fun k => iblk0_2_apply V c t (ix2 p k) (ix2 _ k) rfl rfl)

/-- An index of the result array is in point t's block iff each coordinate is in the block's range on its axis. -/
theorem mem_blk0 (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v7).slice (win0_6.rect t)).set ↔ _
  rw [View.set_slice_whole, Rect.mem_set_unit]
  exact Iff.rfl

/-- Every index of the result array is in some point's block: row r is in the block of point r / 400. -/
theorem cover0 (i : S10000x128.Idx) :
    ∃ t : Fin cfg0.N, (cfg0.win 6).flush t = true ∧ i ∈ ((cfg0.win 6).blk t).view.set := by
  have hN : cfg0.N = 25 := N_0
  have hi0 : (i 0).val < 10000 := (i 0).isLt
  have hi1 : (i 1).val < 128 := (i 1).isLt
  refine ⟨⟨(i 0).val / 400, by omega⟩, flush0_6 _, ?_⟩
  rw [mem_blk0]
  obtain ⟨-, -, -, -, -, -, -, -, -, -, -, -, e0, e1⟩ := idx_facts0 ⟨(i 0).val / 400, by omega⟩
  intro a
  match a with
  | ⟨0, _⟩ =>
    show win0_6.index _ (0 : Fin 2) * 400 ≤ (i 0).val ∧ (i 0).val < win0_6.index _ (0 : Fin 2) * 400 + 400
    rw [e0]; show (i 0).val / 400 * 400 ≤ (i 0).val ∧ (i 0).val < (i 0).val / 400 * 400 + 400; omega
  | ⟨1, _⟩ =>
    show win0_6.index _ (1 : Fin 2) * 128 ≤ (i 1).val ∧ (i 1).val < win0_6.index _ (1 : Fin 2) * 128 + 128
    rw [e1]; omega

/-- The result array after the last point: the layer of the region's operand arrays. -/
theorem final0 (V : (c : Dev nD) → (b : Ref sig .tc) → Buf (Elt Ideal) ((c : Thread nD τ).loc b)) (c : Dev nD) :
    (dat0 (F := Ideal) V c).arrAt 6 cfg0.N
      = Cert.Sage.blockLayer Cert.Sage.normRelu (V c main_v0) (V c main_arg0) (V c main_v5) (V c main_v6) (V c main_v2) :=
  (dat0 (F := Ideal) V c).arrAt_eq_of_cover 6 _ (fun t _ => flushed0_eq V c t) cover0

end Cert.KernelIdeal.Hand

end
-- ==== Proof.Payload1.lean ====
/-
  The second kernel body's stored value at an entry: the specification's second-layer row function of the loaded
  blocks — the affine part, then log-softmax of the row, shifted by the row's maximum.
-/
import proofs.«101081_g67053029425277_cont_sun_c4_613_2_alg».proof.Proof.PayloadLib

noncomputable section

namespace Cert.Sage.Payload

open Idealize.ShloMosaic Idealize.ShloMosaic.ValueIdx Cert.KernelIdeal Cert.KernelIdeal.Gen

/-- The row maximum of a block, as a column broadcast back across the lanes, at (p, k): the fold of max from -inf
    over row p, whatever the lane k. -/
theorem rowMax_apply (X : FVec Ideal S400x128 .f32) (hφ : FKind.Formats .f32)
    (hacc : (0xFF800000#32 : BitVec 32) = 0xFF800000#32) (p : Fin 400) (k : Fin 128) :
    broadcastTo S400x128
        (shapeCast S400x1
          (multiReduction (F := Ideal) .maximumf [1] S400 X 0xFF800000#32 reduces_S400x128_S400 hφ hacc)
          shapeCasts_S400_S400x1)
        broadcasts_S400x1_S400x128 (ix2 p k)
      = (Finset.univ : Finset (Fin 128)).fold max (Ideal.ofBits .f32 0xFF800000#32) (fun j => X (ix2 p j)) := by
  rw [col_bcast_apply, col_cast_apply, laneMax_apply]

/-- The second layer's epilogue on a block, at (p, q): the specification's log-softmax of row p of the block. -/
theorem logSoftmax_epi (X : FVec Ideal S400x128 .f32) (hφ hφ' : FKind.Formats .f32)
    (hacc : (0xFF800000#32 : BitVec 32) = 0xFF800000#32) (hacc' : (0x00000000#32 : BitVec 32) = 0x00000000#32)
    (p : Fin 400) (q : Fin 128) :
    subf
        (subf X
          (broadcastTo S400x128
            (shapeCast S400x1
              (multiReduction (F := Ideal) .maximumf [1] S400 X 0xFF800000#32 reduces_S400x128_S400 hφ hacc)
              shapeCasts_S400_S400x1)
            broadcasts_S400x1_S400x128))
        (broadcastTo S400x128
          (log
            (shapeCast S400x1
              (multiReduction (F := Ideal) .add [1] S400
                (exp
                  (subf X
                    (broadcastTo S400x128
                      (shapeCast S400x1
                        (multiReduction (F := Ideal) .maximumf [1] S400 X 0xFF800000#32 reduces_S400x128_S400 hφ hacc)
                        shapeCasts_S400_S400x1)
                      broadcasts_S400x1_S400x128)))
                0x00000000#32 reduces_S400x128_S400 hφ' hacc')
              shapeCasts_S400_S400x1))
          broadcasts_S400x1_S400x128) (ix2 p q)
      = Cert.Sage.logSoftmax (fun j => X (ix2 p j)) q := by
  unfold Cert.Sage.logSoftmax
  rw [subf_apply, subf_apply, rowMax_apply, col_bcast_apply]
  show _ - Ideal.log (shapeCast S400x1 _ shapeCasts_S400_S400x1 (ix2 p (0 : Fin 1))) = _
  rw [col_cast_apply, laneSum_apply]
  refine congrArg (fun s => _ - Ideal.log s) (Finset.sum_congr rfl fun k _ => ?_)
  show Ideal.exp (subf X _ (ix2 p k)) = _
  rw [subf_apply, rowMax_apply]

theorem pay1_apply
    (v0 : Vec Ideal S400x10000 .f32) (v3 : Vec Ideal S10000x128 .f32) (v8 : Vec Ideal S128x128 .f32)
    (v12 : Vec Ideal S400x128 .f32) (v15 : Vec Ideal S128x128 .f32) (v20 : Vec Ideal S1x128 .f32)
    (p : Fin 400) (q : Fin 128) :
    k1_pay1 (F := Ideal) v0 v3 v8 v12 v15 v20 (ix2 p q)
      = Cert.Sage.logSoftmax (Cert.Sage.rowPre (fun l => v0 (ix2 p l)) (fun k => v12 (ix2 p k)) (fun l k => v3 (ix2 l k))
          (fun k j => v8 (ix2 k j)) (fun k j => v15 (ix2 k j)) (fun j => v20 (ix2 (0 : Fin 1) j))) q := by
  unfold k1_pay1
  refine (logSoftmax_epi _ (.inl rfl) (.inl rfl) rfl rfl p q).trans ?_
  refine congrArg (fun f => Cert.Sage.logSoftmax f q) (funext fun j => ?_)
  simp only [shapeCast_self]
  exact affine_apply _ _ _ _ _ _ p j

end Cert.Sage.Payload

end
-- ==== Proof.KIValue1.lean ====
/-
  Region 1 (the second layer) from its blocks to the whole result array, at the ideal values.

  Point t of the 25 holds rows 400 t … 400 t + 399 of the adjacency matrix and of the hidden feature matrix, together with
  the whole hidden feature matrix, the two transposed weight matrices and the bias row, and writes back rows
  400 t … 400 t + 399 of the result.  Each stored entry (p, q) is the layer's value at (400 t + p, q), so what a
  point writes back is its block of the layer; row r of the result lies in the block of point r / 400, so the 25
  blocks cover the array, which therefore ends holding the layer of the region's operand arrays.
-/
import proofs.«101081_g67053029425277_cont_sun_c4_613_2_alg».proof.Proof.KIBody1
import proofs.«101081_g67053029425277_cont_sun_c4_613_2_alg».proof.Proof.SpecBlock
import proofs.«101081_g67053029425277_cont_sun_c4_613_2_alg».proof.Proof.Payload1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem hz01 : (![0, 0] : Fin 2 → Nat) = fun _ => 0 := funext fun a => by fin_cases a <;> rfl

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable {F : FTy → Type} [FloatOps F]
variable (V : (c : Dev nD) → (b : Ref sig .tc) → Buf (Elt F) ((c : Thread nD τ).loc b))

/-! ## Each input block as entries of its array -/

/-- The adjacency block at point t: rows 400 t … 400 t + 399 of the adjacency matrix. -/
theorem iblk1_0_apply (c : Dev nD) (t : Fin cfg1.N) (x : S400x10000.Idx) (k : S10000x10000.Idx)
    (hk0 : (k 0).val = 400 * t.val + (x 0).val) (hk1 : (k 1).val = (x 1).val) :
    (iblk1 V c 0 t : Vec F S400x10000 .f32) x = (V c main_v0 : S10000x10000.Idx → Elt F .f32) k := by
  obtain ⟨e0, e1, -⟩ := idx_facts1 t
  unfold iblk1
  rw [View.read_apply]
  show V c main_v0 _ = V c main_v0 _
  refine congrArg (V c main_v0) (funext fun a => Fin.ext ?_)
  match a with
  | ⟨0, _⟩ => show win1_0.index t (0 : Fin 2) * 400 + 1 * (x 0).val = (k 0).val; rw [e0, hk0]; omega
  | ⟨1, _⟩ => show win1_0.index t (1 : Fin 2) * 10000 + 1 * (x 1).val = (k 1).val; rw [e1, hk1]; omega

/-- The whole hidden feature matrix, the block every point holds. -/
theorem iblk1_1_eq (c : Dev nD) (t : Fin cfg1.N) :
    (iblk1 V c 1 t : Vec F S10000x128 .f32) = (V c main_v7 : S10000x128.Idx → Elt F .f32) := by
  obtain ⟨-, -, e0, e1, -⟩ := idx_facts1 t
  funext x
  unfold iblk1
  rw [View.read_apply]
  show V c main_v7 _ = V c main_v7 _
  refine congrArg (V c main_v7) (funext fun a => Fin.ext ?_)
  match a with
  | ⟨0, _⟩ => show win1_1.index t (0 : Fin 2) * 10000 + 1 * (x 0).val = (x 0).val; rw [e0]; omega
  | ⟨1, _⟩ => show win1_1.index t (1 : Fin 2) * 128 + 1 * (x 1).val = (x 1).val; rw [e1]; omega

/-- The feature block at point t: rows 400 t … 400 t + 399 of the hidden feature matrix. -/
theorem iblk1_2_apply (c : Dev nD) (t : Fin cfg1.N) (x : S400x128.Idx) (k : S10000x128.Idx)
    (hk0 : (k 0).val = 400 * t.val + (x 0).val) (hk1 : (k 1).val = (x 1).val) :
    (iblk1 V c 2 t : Vec F S400x128 .f32) x = (V c main_v7 : S10000x128.Idx → Elt F .f32) k := by
  obtain ⟨-, -, -, -, e0, e1, -⟩ := idx_facts1 t
  unfold iblk1
  rw [View.read_apply]
  show V c main_v7 _ = V c main_v7 _
  refine congrArg (V c main_v7) (funext fun a => Fin.ext ?_)
  match a with
  | ⟨0, _⟩ => show win1_2.index t (0 : Fin 2) * 400 + 1 * (x 0).val = (k 0).val; rw [e0, hk0]; omega
  | ⟨1, _⟩ => show win1_2.index t (1 : Fin 2) * 128 + 1 * (x 1).val = (k 1).val; rw [e1, hk1]; omega

/-- The first transposed weight matrix, whole. -/
theorem iblk1_3_eq (c : Dev nD) (t : Fin cfg1.N) :
    (iblk1 V c 3 t : Vec F S128x128 .f32) = (V c main_v8 : S128x128.Idx → Elt F .f32) := by
  obtain ⟨-, -, -, -, -, -, e0, e1, -⟩ := idx_facts1 t
  funext x
  unfold iblk1
  rw [View.read_apply]
  show V c main_v8 _ = V c main_v8 _
  refine congrArg (V c main_v8) (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The second transposed weight matrix, whole. -/
theorem iblk1_4_eq (c : Dev nD) (t : Fin cfg1.N) :
    (iblk1 V c 4 t : Vec F S128x128 .f32) = (V c main_v9 : S128x128.Idx → Elt F .f32) := by
  obtain ⟨-, -, -, -, -, -, -, -, e0, e1, -⟩ := idx_facts1 t
  funext x
  unfold iblk1
  rw [View.read_apply]
  show V c main_v9 _ = V c main_v9 _
  refine congrArg (V c main_v9) (funext fun a => Fin.ext ?_)
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- The bias row, whole. -/
theorem iblk1_5_eq (c : Dev nD) (t : Fin cfg1.N) :
    (iblk1 V c 5 t : Vec F S1x128 .f32) = (V c main_v4 : S1x128.Idx → Elt F .f32) := by
  obtain ⟨-, -, -, -, -, -, -, -, -, -, e0, e1, -⟩ := idx_facts1 t
  funext x
  unfold iblk1
  rw [View.read_apply]
  show V c main_v4 _ = V c main_v4 _
  refine congrArg (V c main_v4) (funext fun a => Fin.ext ?_)
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-! ## One stored entry -/

/-- The body's stored value at (p, q), when its adjacency block's row p is row r of the adjacency matrix and its
    feature block's row p is row r of the hidden feature matrix: the layer at (r, q). -/
theorem point1 (x0 : Vec Ideal S400x10000 .f32) (x1 : Vec Ideal S10000x128 .f32) (x2 : Vec Ideal S400x128 .f32)
    (x3 x4 : Vec Ideal S128x128 .f32) (x5 : Vec Ideal S1x128 .f32) (A : S10000x10000.Idx → EReal)
    (p : Fin 400) (q : Fin 128) (r : Fin 10000)
    (h0 : ∀ l : Fin 10000, x0 (ix2 p l) = A (ix2 r l)) (h2 : ∀ k : Fin 128, x2 (ix2 p k) = x1 (ix2 r k)) :
    k1_pay1 (F := Ideal) x0 x1 x3 x2 x4 x5 (ix2 p q)
      = Cert.Sage.blockLayer Cert.Sage.logSoftmax A x1 x3 x4 x5 (ix2 r q) := by
  rw [Cert.Sage.Payload.pay1_apply]
  unfold Cert.Sage.blockLayer
  simp only [h0, h2]

/-! ## What a point writes back, and the array after the last point -/

/-- What point t writes back is block t of the layer of the region's operand arrays. -/
theorem flushed1_eq (V : (c : Dev nD) → (b : Ref sig .tc) → Buf (Elt Ideal) ((c : Thread nD τ).loc b)) (c : Dev nD)
    (t : Fin cfg1.N) :
    (dat1 (F := Ideal) V c).flushed 6 t = ((cfg1.win 6).blk t).view.read (Elt Ideal)
      (Cert.Sage.blockLayer Cert.Sage.logSoftmax (V c main_v0) (V c main_v7) (V c main_v8) (V c main_v9) (V c main_v4)) := by
  show (cfg1.win 6).cut (grid1.coords t) ((dat1 V c).after 6 t) = _
  rw [after1_6]
  unfold out1_6
  rw [View.canon_unit_zero hz01]
  simp only [View.ld_unit_zero (S := S400x10000) hz01, View.ld_unit_zero (S := S10000x128) hz01,
    View.ld_unit_zero (S := S400x128) hz01, View.ld_unit_zero (S := S128x128) hz01, View.ld_unit_zero (S := S1x128) hz01]
  rw [iblk1_1_eq, iblk1_3_eq, iblk1_4_eq, iblk1_5_eq]
  have hN : cfg1.N = 25 := N_1
  have ht : t.val < 25 := by have := t.isLt; omega
  obtain ⟨-, -, -, -, -, -, -, -, -, -, -, -, e0, e1⟩ := idx_facts1 t
  funext j
  obtain ⟨p, q, rfl⟩ : ∃ (p : Fin 400) (q : Fin 128), j = ix2 p q := ⟨j 0, j 1, eq_ix2 j⟩
  have hp : p.val < 400 := p.isLt
  have he : ((cfg1.win 6).blk t).view.emb (ix2 p q) = ix2 (⟨400 * t.val + p.val, by omega⟩ : Fin 10000) q := by
    funext a; apply Fin.ext
    match a with
    | ⟨0, _⟩ => show win1_6.index t (0 : Fin 2) * 400 + 1 * p.val = 400 * t.val + p.val; rw [e0]; omega
    | ⟨1, _⟩ => show win1_6.index t (1 : Fin 2) * 128 + 1 * q.val = q.val; rw [e1]; omega
  show k1_pay1 (F := Ideal) (iblk1 V c 0 t) (V c main_v7) (V c main_v8) (iblk1 V c 2 t) (V c main_v9) (V c main_v4) (ix2 p q)
    = Cert.Sage.blockLayer Cert.Sage.logSoftmax (V c main_v0) (V c main_v7) (V c main_v8) (V c main_v9) (V c main_v4)
        (((cfg1.win 6).blk t).view.emb (ix2 p q))
  rw [he]
  exact point1 _ _ _ _ _ _ _ p q _
    (fun l => iblk1_0_apply V c t (ix2 p l) (ix2 _ l) rfl rfl)
    (fun k => iblk1_2_apply V c t (ix2 p k) (ix2 _ k) rfl rfl)

/-- An index of the result array is in point t's block iff each coordinate is in the block's range on its axis. -/
theorem mem_blk1 (t : Fin cfg1.N) (i : S10000x128.Idx) :
    i ∈ ((cfg1.win 6).blk t).view.set ↔ ∀ a : Fin 2, win1_6.index t a * S400x128.size a ≤ (i a).val
      ∧ (i a).val < win1_6.index t a * S400x128.size a + S400x128.size a := by
  show i ∈ ((View.whole main_v10).slice (win1_6.rect t)).set ↔ _
  rw [View.set_slice_whole, Rect.mem_set_unit]
  exact Iff.rfl

/-- Every index of the result array is in some point's block: row r is in the block of point r / 400. -/
theorem cover1 (i : S10000x128.Idx) :
    ∃ t : Fin cfg1.N, (cfg1.win 6).flush t = true ∧ i ∈ ((cfg1.win 6).blk t).view.set := by
  have hN : cfg1.N = 25 := N_1
  have hi0 : (i 0).val < 10000 := (i 0).isLt
  have hi1 : (i 1).val < 128 := (i 1).isLt
  refine ⟨⟨(i 0).val / 400, by omega⟩, flush1_6 _, ?_⟩
  rw [mem_blk1]
  obtain ⟨-, -, -, -, -, -, -, -, -, -, -, -, e0, e1⟩ := idx_facts1 ⟨(i 0).val / 400, by omega⟩
  intro a
  match a with
  | ⟨0, _⟩ =>
    show win1_6.index _ (0 : Fin 2) * 400 ≤ (i 0).val ∧ (i 0).val < win1_6.index _ (0 : Fin 2) * 400 + 400
    rw [e0]; show (i 0).val / 400 * 400 ≤ (i 0).val ∧ (i 0).val < (i 0).val / 400 * 400 + 400; omega
  | ⟨1, _⟩ =>
    show win1_6.index _ (1 : Fin 2) * 128 ≤ (i 1).val ∧ (i 1).val < win1_6.index _ (1 : Fin 2) * 128 + 128
    rw [e1]; omega

/-- The result array after the last point: the layer of the region's operand arrays. -/
theorem final1 (V : (c : Dev nD) → (b : Ref sig .tc) → Buf (Elt Ideal) ((c : Thread nD τ).loc b)) (c : Dev nD) :
    (dat1 (F := Ideal) V c).arrAt 6 cfg1.N
      = Cert.Sage.blockLayer Cert.Sage.logSoftmax (V c main_v0) (V c main_v7) (V c main_v8) (V c main_v9) (V c main_v4) :=
  (dat1 (F := Ideal) V c).arrAt_eq_of_cover 6 _ (fun t _ => flushed1_eq V c t) cover1

end Cert.KernelIdeal.Hand

end
-- ==== Proof.KIResult.lean ====
/-
  The idealized kernel program's result array is the network of the specification, applied to the argument arrays.

  The second region's write-backs leave its layer (log-softmax epilogue) of the arrays it was entered from; among
  those, the feature matrix is what the first region's write-backs left: the first layer (L1-normalised, clamped at
  zero) of the arrays IT was entered from; and those arrays are what the host operations made of the arguments.
-/
import proofs.«101081_g67053029425277_cont_sun_c4_613_2_alg».proof.Proof.KIHost
import proofs.«101081_g67053029425277_cont_sun_c4_613_2_alg».proof.Proof.KIValue0
import proofs.«101081_g67053029425277_cont_sun_c4_613_2_alg».proof.Proof.KIValue1

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- What the first region leaves in its output array: the specification's hidden features of the arguments. -/
theorem hidden_eq (c : Dev nD) :
    (dat0 (F := Ideal) (U1 m) c).arrAt 6 cfg0.N
      = Cert.Sage.hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (final0 (U1 m) c).trans (layerA_args m c)

/-- What the second region leaves in the result array: the network of the arguments. -/
theorem result_eq (c : Dev nD) :
    (dat1 (F := Ideal) (U3 m) c).arrAt 6 cfg1.N
      = Cert.Sage.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  rw [final1 (U3 m) c, U3_v0, U3_v7, hidden_eq, U3_v8, U3_v9, U3_v4, U1_v0, U1_v4]
  exact blockLayer_args _ _ _ _ _ _ _

end Cert.KernelIdeal.Hand

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.RefLaws.lean ====
/-
  The three laws of the extended reals that join the reference program's spelling of the two-layer network to the
  specification's, none of which needs an entry to be finite: a maximum against the word of -inf is the other operand
  (the reference's log-softmax takes one more maximum with -inf than the specification's fold from -inf does);
  a float sum that starts from the word of 0 is the sum; and the two biases, which the reference adds one to each
  matrix product before adding the two, may be added to each other first, because addition of extended reals is
  commutative and associative.
-/
import Idealize.ShloMosaic.PureOps.Ideal.Laws

noncomputable section

namespace Cert.Sage.RefValue

open Idealize.ShloMosaic

/-- The f32 word 0xFF800000 is -inf, the least extended real: a maximum with it is the other operand. -/
theorem max_negInf (m : EReal) : max (Ideal.ofBits .f32 0xFF800000#32) m = m := by
  simp [Ideal.ofBits, Ideal.ieee]

/-- A sum started from the f32 word of zero is the sum. -/
theorem zeroWord_add (s : EReal) : Ideal.ofBits .f32 0x00000000#32 + s = s := by
  rw [Ideal.ofBits_zero_f32, zero_add]

/-- (a + bl) + (c + br) = (a + c) + (bl + br): each product with its own bias, or the two products and then the
    summed bias. -/
theorem regroup (a bl c br : EReal) : (a + bl) + (c + br) = (a + c) + (bl + br) :=
  add_add_add_comm a bl c br

end Cert.Sage.RefValue

end
-- ==== Proof.RefHidden.lean ====
/-
  The reference program's first layer, read entry by entry, is the specification's `hidden`.

  Row r, column q of the reference's pre-activation is
      ( Σ_k (Σ_l adj(r,l) · x(l,k)) · Wl(q,k)  +  bl(q) )  +  ( Σ_k x(r,k) · Wr(q,k)  +  br(q) ):
  the reshape of the one-slab rank-3 input at (r,l) is the slab's entry (0,r,l) (row-major position r·10000 + l on both
  sides); a transposed weight read at (k,q) is the weight at (q,k); a bias broadcast first to one row and then down the
  rows reads, at (r,q), the bias at q.  Adding the two biases to each other first is the regrouping law.  The epilogue
  divides the entry by the row's sum of absolute values (started from the word of zero) clamped below at the word
  0x2B8CBCCC, and clamps the quotient at the word of zero: `normRelu` of the row.
-/
import proofs.«101081_g67053029425277_cont_sun_c4_613_2_alg».proof.Proof.RefRead
import proofs.«101081_g67053029425277_cont_sun_c4_613_2_alg».proof.Proof.Spec
import proofs.«101081_g67053029425277_cont_sun_c4_613_2_alg».proof.Proof.RefLaws

noncomputable section

namespace Cert.Sage.RefValue

open Cert.ReferenceIdeal Cert.ReferenceIdeal.Gen Idealize.ShloMosaic Idealize.ShloMosaic.ValueIdx
open Cert.ReferenceIdeal.ReadP

/-! ## Where each operation of the first layer reads its operands, by coordinates -/

/-- The reshape [1,10000,10000] → [10000,10000] at (r,l) reads the slab at (0,r,l): both sit at row-major position
    r·10000 + l. -/
theorem idx_v0 (r l : Fin 10000) : idx_main_v0 (ix2 r l) = ix3 (0 : Fin 1) r l := by
  funext a
  match a with
  | ⟨0, _⟩ => rfl
  | ⟨1, _⟩ =>
    refine Fin.ext ?_
    show (r.val * 10000 + l.val) / 10000 % 10000 = r.val
    have := r.isLt; have := l.isLt; omega
  | ⟨2, _⟩ =>
    refine Fin.ext ?_
    show (r.val * 10000 + l.val) % 10000 = l.val
    have := r.isLt; have := l.isLt; omega

/-- A product (rows × contraction) · (contraction × columns) at (r,q), term k: the left operand at (r,k) … -/
theorem lidx_v3 (r : Fin 10000) (q k : Fin 128) : lidx_main_v3 (ix2 r q) k = ix2 r k := by
  funext a; match a with | ⟨0, _⟩ => rfl | ⟨1, _⟩ => rfl
/-- … and the right operand at (k,q). -/
theorem ridx_v3 (r : Fin 10000) (q k : Fin 128) : ridx_main_v3 (ix2 r q) k = ix2 k q := by
  funext a; match a with | ⟨0, _⟩ => rfl | ⟨1, _⟩ => rfl
/-- The aggregation adj · x at (r,k), term l: adj at (r,l) … -/
theorem lidx_v1 (r : Fin 10000) (k : Fin 128) (l : Fin 10000) : lidx_main_v1 (ix2 r k) l = ix2 r l := by
  funext a; match a with | ⟨0, _⟩ => rfl | ⟨1, _⟩ => rfl
/-- … and x at (l,k). -/
theorem ridx_v1 (r : Fin 10000) (k : Fin 128) (l : Fin 10000) : ridx_main_v1 (ix2 r k) l = ix2 l k := by
  funext a; match a with | ⟨0, _⟩ => rfl | ⟨1, _⟩ => rfl
/-- The transposed left weight at (k,q) is the weight at (q,k). -/
theorem idx_v2 (k q : Fin 128) : idx_main_v2 (ix2 k q) = ix2 q k := by
  funext a; match a with | ⟨0, _⟩ => rfl | ⟨1, _⟩ => rfl
/-- The product x · Wrᵀ at (r,q), term k: x at (r,k) … -/
theorem lidx_v8 (r : Fin 10000) (q k : Fin 128) : lidx_main_v8 (ix2 r q) k = ix2 r k := by
  funext a; match a with | ⟨0, _⟩ => rfl | ⟨1, _⟩ => rfl
/-- … and the transposed right weight at (k,q) … -/
theorem ridx_v8 (r : Fin 10000) (q k : Fin 128) : ridx_main_v8 (ix2 r q) k = ix2 k q := by
  funext a; match a with | ⟨0, _⟩ => rfl | ⟨1, _⟩ => rfl
/-- … which is the weight at (q,k). -/
theorem idx_v7 (k q : Fin 128) : idx_main_v7 (ix2 k q) = ix2 q k := by
  funext a; match a with | ⟨0, _⟩ => rfl | ⟨1, _⟩ => rfl
/-- The left bias, broadcast to one row and then down the rows, reads at (r,q) the bias at q … -/
theorem idx_v4v5 (r : Fin 10000) (q : Fin 128) : idx_main_v4 (idx_main_v5 (ix2 r q)) = ix1 q := by
  funext a; match a with | ⟨0, _⟩ => rfl
/-- … and so does the right bias. -/
theorem idx_v9v10 (r : Fin 10000) (q : Fin 128) : idx_main_v9 (idx_main_v10 (ix2 r q)) = ix1 q := by
  funext a; match a with | ⟨0, _⟩ => rfl
/-- The sum along a row r, term k, reads (r,k). -/
theorem idx_v14 (r : Fin 10000) (k : Fin 128) : idx_main_v14 (ix1 r) k = ix2 r k := by
  funext a; match a with | ⟨0, _⟩ => rfl | ⟨1, _⟩ => rfl
/-- The row norm, made a column and broadcast across the columns, reads at (r,q) the norm of row r. -/
theorem idx_v15v18 (r : Fin 10000) (q : Fin 128) : idx_main_v15 (idx_main_v18 (ix2 r q)) = ix1 r := by
  funext a; match a with | ⟨0, _⟩ => rfl

/-! ## The first layer -/

/-- The reference's first pre-activation at (r,q) is the specification's row formula. -/
theorem pre1 (x0 : (⟨S10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 10000) (q : Fin 128) :
    val_main_v12 (F := Ideal) x0 x1 x2 x3 x4 x5 (ix2 r q)
      = rowPre (fun l => adjOf x1 (ix2 r l)) (fun k => x0 (ix2 r k)) (fun l k => x0 (ix2 l k))
          (fun k j => x2 (ix2 j k)) (fun k j => x4 (ix2 j k)) (fun j => x3 (ix1 j) + x5 (ix1 j)) q := by
  rw [val_main_v12_apply, val_main_v6_apply, val_main_v11_apply, val_main_v3_apply, val_main_v5_apply, val_main_v4_apply,
    val_main_v8_apply, val_main_v10_apply, val_main_v9_apply]
  simp only [lidx_v3, ridx_v3, val_main_v1_apply, val_main_v2_apply, lidx_v1, ridx_v1, idx_v2, val_main_v0_apply, idx_v0,
    lidx_v8, ridx_v8, val_main_v7_apply, idx_v7, idx_v4v5, idx_v9v10, Ideal.addf_def]
  exact regroup _ _ _ _

/-- The reference's first layer, as a whole array, is the specification's `hidden`. -/
theorem hidden_eq (x0 : (⟨S10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v20 (F := Ideal) x0 x1 x2 x3 x4 x5 = hidden x0 x1 x2 x3 x4 x5 := by
  funext i
  obtain ⟨r, q, rfl⟩ : ∃ (r : Fin 10000) (q : Fin 128), i = ix2 r q := ⟨i 0, i 1, eq_ix2 i⟩
  rw [val_main_v20_apply, val_main_v19_apply, val_main_v18_apply, val_main_v17_apply, val_main_v15_apply, val_main_v14_apply,
    val_main_v16_apply, val_main_cst_0_apply, val_main_call0_v0_apply, val_main_call0_cst_apply, val_main_cst_apply]
  simp only [idx_v15v18, idx_v14, val_main_v13_apply, pre1, Ideal.maximumf_def, Ideal.hostDivf_def, Ideal.hostAbsf_def,
    Ideal.absf_def, Ideal.ofBits_def, zeroWord_add]
  rfl

end Cert.Sage.RefValue

end
-- ==== Proof.RefValue.lean ====
/-
  The reference program's result, read entry by entry, is the specification's two-layer network.

  The second layer repeats the first layer's pre-activation with the first layer's output h in the place of x: row r,
  column q is ( Σ_k (Σ_l adj(r,l) · h(l,k)) · Wl(q,k) + bl(q) ) + ( Σ_k h(r,k) · Wr(q,k) + br(q) ), and h enters at every row
  l through the aggregation.  Its epilogue is log-softmax along the row: the row's maximum is the host's reduction with a
  maximum body started from the word of -inf, that is the fold of max over the row's 128 entries; the reference then
  takes one more maximum with -inf, which changes nothing; the shifted entries are exponentiated, summed from the word
  of zero, and the logarithm of the sum is subtracted from the shifted entry.
-/
import proofs.«101081_g67053029425277_cont_sun_c4_613_2_alg».proof.Proof.RefHidden

noncomputable section

namespace Cert.Sage.RefValue

open Cert.ReferenceIdeal Cert.ReferenceIdeal.Gen Idealize.ShloMosaic Idealize.ShloMosaic.ValueIdx
open Idealize.ShloMosaic.TcCoe Idealize.SL.Sem
open Cert.ReferenceIdeal.ReadP

/-! ## Where each operation of the second layer reads its operands, by coordinates

The same shapes of products, transposes and bias broadcasts as in the first layer. -/

theorem lidx_v23 (r : Fin 10000) (q k : Fin 128) : lidx_main_v23 (ix2 r q) k = ix2 r k := by
  funext a; match a with | ⟨0, _⟩ => rfl | ⟨1, _⟩ => rfl
theorem ridx_v23 (r : Fin 10000) (q k : Fin 128) : ridx_main_v23 (ix2 r q) k = ix2 k q := by
  funext a; match a with | ⟨0, _⟩ => rfl | ⟨1, _⟩ => rfl
theorem lidx_v21 (r : Fin 10000) (k : Fin 128) (l : Fin 10000) : lidx_main_v21 (ix2 r k) l = ix2 r l := by
  funext a; match a with | ⟨0, _⟩ => rfl | ⟨1, _⟩ => rfl
theorem ridx_v21 (r : Fin 10000) (k : Fin 128) (l : Fin 10000) : ridx_main_v21 (ix2 r k) l = ix2 l k := by
  funext a; match a with | ⟨0, _⟩ => rfl | ⟨1, _⟩ => rfl
theorem idx_v22 (k q : Fin 128) : idx_main_v22 (ix2 k q) = ix2 q k := by
  funext a; match a with | ⟨0, _⟩ => rfl | ⟨1, _⟩ => rfl
theorem lidx_v28 (r : Fin 10000) (q k : Fin 128) : lidx_main_v28 (ix2 r q) k = ix2 r k := by
  funext a; match a with | ⟨0, _⟩ => rfl | ⟨1, _⟩ => rfl
theorem ridx_v28 (r : Fin 10000) (q k : Fin 128) : ridx_main_v28 (ix2 r q) k = ix2 k q := by
  funext a; match a with | ⟨0, _⟩ => rfl | ⟨1, _⟩ => rfl
theorem idx_v27 (k q : Fin 128) : idx_main_v27 (ix2 k q) = ix2 q k := by
  funext a; match a with | ⟨0, _⟩ => rfl | ⟨1, _⟩ => rfl
theorem idx_v24v25 (r : Fin 10000) (q : Fin 128) : idx_main_v24 (idx_main_v25 (ix2 r q)) = ix1 q := by
  funext a; match a with | ⟨0, _⟩ => rfl
theorem idx_v29v30 (r : Fin 10000) (q : Fin 128) : idx_main_v29 (idx_main_v30 (ix2 r q)) = ix1 q := by
  funext a; match a with | ⟨0, _⟩ => rfl
/-- The row maximum, made a column and broadcast across the columns, reads at (r,q) the maximum of row r … -/
theorem idx_c1v3v4 (r : Fin 10000) (q : Fin 128) : idx_main_call1_v3 (idx_main_call1_v4 (ix2 r q)) = ix1 r := by
  funext a; match a with | ⟨0, _⟩ => rfl
/-- … and so does the logarithm of the row's sum of exponentials. -/
theorem idx_c1v8v10 (r : Fin 10000) (q : Fin 128) : idx_main_call1_v8 (idx_main_call1_v10 (ix2 r q)) = ix1 r := by
  funext a; match a with | ⟨0, _⟩ => rfl
/-- The sum along row r, term k, reads (r,k). -/
theorem idx_c1v7 (r : Fin 10000) (k : Fin 128) : idx_main_call1_v7 (ix1 r) k = ix2 r k := by
  funext a; match a with | ⟨0, _⟩ => rfl | ⟨1, _⟩ => rfl

/-! ## The second layer's pre-activation -/

/-- The reference's second pre-activation at (r,q) is the specification's row formula over the first layer's output. -/
theorem pre2 (x0 : (⟨S10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (r : Fin 10000) (q : Fin 128) :
    val_main_v32 (F := Ideal) x0 x1 x2 x3 x4 x5 x6 x7 x8 x9 (ix2 r q)
      = rowPre (fun l => adjOf x1 (ix2 r l)) (fun k => val_main_v20 (F := Ideal) x0 x1 x2 x3 x4 x5 (ix2 r k))
          (fun l k => val_main_v20 (F := Ideal) x0 x1 x2 x3 x4 x5 (ix2 l k))
          (fun k j => x6 (ix2 j k)) (fun k j => x8 (ix2 j k)) (fun j => x7 (ix1 j) + x9 (ix1 j)) q := by
  rw [val_main_v32_apply, val_main_v26_apply, val_main_v31_apply, val_main_v23_apply, val_main_v25_apply, val_main_v24_apply,
    val_main_v28_apply, val_main_v30_apply, val_main_v29_apply]
  simp only [lidx_v23, ridx_v23, val_main_v21_apply, val_main_v22_apply, lidx_v21, ridx_v21, idx_v22, val_main_v0_apply, idx_v0,
    lidx_v28, ridx_v28, val_main_v27_apply, idx_v27, idx_v24v25, idx_v29v30, Ideal.addf_def]
  exact regroup _ _ _ _

/-! ## The row maximum -/

/-- Row r of the [10000,128] array with column k put back is (r,k). -/
theorem lift_row (h : S10000x128.Reduces [1] S10000) (r : Fin 10000) (k : Fin (S10000x128.size 1)) :
    h.lift (ix1 r) k = ix2 r (⟨k.val, k.isLt⟩ : Fin 128) := by
  funext c; apply Fin.ext
  fin_cases c <;> rfl

/-- The host's reduction with a maximum body along the rows, started from the word of -inf, is at row r the fold of
    `max` from that word over the row's 128 entries. -/
theorem rowMax_of (y : FVec Ideal S10000x128 .f32) (r : Fin 10000) :
    Host.reduce FloatOps.maximumf y (constant (F := Ideal) S_ .f32 0xFF800000#32) reducesTo_S10000x128_S10000_d1 h_S_ (ix1 r)
      = (Finset.univ : Finset (Fin 128)).fold max (Ideal.ofBits .f32 0xFF800000#32) (fun j' => y (ix2 r j')) := by
  have h : S10000x128.Reduces [1] S10000 := by decide
  rw [Host.reduce_eq_fold_single FloatOps.maximumf y _ reducesTo_S10000x128_S10000_d1 h h_S_]
  have hf : (y ∘ h.lift (ix1 r)) = fun k : Fin 128 => y (ix2 r k) := funext fun k => congrArg y (lift_row h r k)
  exact congrArg (fun f => Finset.fold max (Ideal.ofBits .f32 0xFF800000#32) f (Finset.univ : Finset (Fin 128))) hf

/-- So the reference's row maximum of the second pre-activation is that fold. -/
theorem rowMax (x0 : (⟨S10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (r : Fin 10000) :
    val_main_call1_v0 (F := Ideal) x0 x1 x2 x3 x4 x5 x6 x7 x8 x9 (ix1 r)
      = (Finset.univ : Finset (Fin 128)).fold max (Ideal.ofBits .f32 0xFF800000#32)
          (fun j' => val_main_v32 (F := Ideal) x0 x1 x2 x3 x4 x5 x6 x7 x8 x9 (ix2 r j')) := by
  unfold val_main_call1_v0
  exact rowMax_of _ r

/-- The shift the reference subtracts at (r,q) — the row maximum after one more maximum with -inf — is the fold. -/
theorem shift_read (x0 : (⟨S10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (r : Fin 10000) (q : Fin 128) :
    val_main_call1_v4 (F := Ideal) x0 x1 x2 x3 x4 x5 x6 x7 x8 x9 (ix2 r q)
      = (Finset.univ : Finset (Fin 128)).fold max (Ideal.ofBits .f32 0xFF800000#32)
          (fun j' => val_main_v32 (F := Ideal) x0 x1 x2 x3 x4 x5 x6 x7 x8 x9 (ix2 r j')) := by
  rw [val_main_call1_v4_apply, val_main_call1_v3_apply, idx_c1v3v4, val_main_call1_v2_apply, val_main_call1_v1_apply,
    val_main_call1_cst_0_apply, rowMax]
  exact max_negInf _

/-! ## The network -/

/-- The reference's last stage, as a whole array, is the specification's network of the ten arguments. -/
theorem net_eq (x0 : (⟨S10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v33 (F := Ideal) x0 x1 x2 x3 x4 x5 x6 x7 x8 x9 = net x0 x1 x2 x3 x4 x5 x6 x7 x8 x9 := by
  funext i
  obtain ⟨r, q, rfl⟩ : ∃ (r : Fin 10000) (q : Fin 128), i = ix2 r q := ⟨i 0, i 1, eq_ix2 i⟩
  rw [val_main_v33_apply, val_main_call1_v10_apply, val_main_call1_v9_apply, val_main_call1_v8_apply, val_main_call1_v7_apply,
    val_main_call1_cst_1_apply]
  simp only [idx_c1v8v10, idx_c1v7, val_main_call1_v6_apply, val_main_call1_v5_apply, shift_read, pre2, hidden_eq,
    Ideal.subf_def, Ideal.hostUnary_exp_def, Ideal.hostUnary_log_def, Ideal.ofBits_def, zeroWord_add]
  rfl

/-- The reference program's result is the network of the launch contents of its ten arguments. -/
theorem result_eq
    (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_out0 (F := Ideal) m c
      = Cert.Sage.net
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9)) :=
  (val_main_v33_eq (F := Ideal) m c).trans (net_eq _ _ _ _ _ _ _ _ _ _)

end Cert.Sage.RefValue

end
-- ==== Proof.lean ====
/-
  A fused two-layer dense GraphSAGE network — per layer (adj · h) · Wlᵀ + h · Wrᵀ + (bl + br), the first layer
  L1-normalised row by row and clamped at zero, the second followed by a row-wise log-softmax — written as two kernel
  launches, one per layer, each sweeping the 10000 x 10000 adjacency matrix by blocks of 400 rows, against the plain
  host program.

  On the extended reals the two programs compute ONE function of the ten argument arrays (Proof/Spec.lean): the
  kernel's bf16 roundings are the identity there, its row-blocked products are the rows of the whole products, and the
  only rearrangement between the two sides is where the two biases are added — the kernel adds their sum once,
  the host adds one after each linear term — which is commutativity and associativity of addition, valid at the
  infinities too, so the precondition (finite inputs) is never opened.  No rewrite was applied when the kernel was
  idealized, so the idealization claim is trivial.

  The frames of the two kernel programs (Proof/K*.lean for the word-level program, Proof/KI*.lean for the
  idealized one) run @main as: host operations, the first region, host operations, the second region; in each region
  two windows read one array, which is held half and half.  The reference's frame is its run with the result dropped.
-/
import proofs.«101081_g67053029425277_cont_sun_c4_613_2_alg».proof.Defs
import proofs.«101081_g67053029425277_cont_sun_c4_613_2_alg».proof.Proof.Gen.Kernel
import proofs.«101081_g67053029425277_cont_sun_c4_613_2_alg».proof.Proof.Gen.KernelIdeal
import proofs.«101081_g67053029425277_cont_sun_c4_613_2_alg».proof.Proof.Gen.ReferenceIdeal
import proofs.«101081_g67053029425277_cont_sun_c4_613_2_alg».proof.Proof.Gen.Pre_finite_inputs
import proofs.«101081_g67053029425277_cont_sun_c4_613_2_alg».proof.Proof.KRun
import proofs.«101081_g67053029425277_cont_sun_c4_613_2_alg».proof.Proof.KIResult
import proofs.«101081_g67053029425277_cont_sun_c4_613_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run Cert.Kernel.defs _ _).mono (fun _ h c => (h c).2) (Cert.Kernel.Hand.run_main (F := Bits) m ρ)

/-- So does the idealized kernel program. -/
theorem frame_ki : Cert.frame_KernelIdeal := fun m ρ _ =>
  (θ_run Cert.KernelIdeal.defs _ _).mono (fun _ h c => (h c).2) (Cert.KernelIdeal.Hand.run_main (F := Ideal) m ρ)

/-- And the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both idealized programs end with the network of the arguments in their
    result arrays. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9⟩ := hagree c
    refine (Cert.Sage.RefValue.result_eq m' c).trans ?_
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
